-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)) →
    ∃ (v0 : (c : Dev Cert.KernelIdeal.nD) → Buf (Elt Ideal) ((c.tc : Thread Cert.KernelIdeal.nD Cert.KernelIdeal.τ).loc Cert.KernelIdeal.main_v45)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v45) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v46) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S16x512x64x64 : Shape := ⟨4, ![16, 512, 64, 64]⟩
abbrev S16x64x64 : Shape := ⟨3, ![16, 64, 64]⟩
abbrev S_ : Shape := ⟨0, ![]⟩

class Facts : Prop where
  bcast_S_S16x512x64x64 : S_.BroadcastsInDim S16x512x64x64 (![] : Fin 0 → Fin S16x512x64x64.rank)
  reducesTo_S16x512x64x64_S_d0_1_2_3 : S16x512x64x64.ReducesTo [0, 1, 2, 3] S_
  h_S_ : 0 < S_.numel

variable [Facts]

def fn {F : FTy → Type} [FloatOps F] (main_arg0 : FVec F S16x512x64x64 .f32) (main_arg1 : FVec F S16x512x64x64 .f32) (main_arg2 : IVec S16x64x64 32) : IVec S_ 1 :=
  let main_v0 : FVec F S16x512x64x64 .f32 := Host.absf main_arg0
  let main_cst : FVec F S_ .f32 := constant S_ .f32 0x7F800000#32
  let main_v1 : FVec F S16x512x64x64 .f32 := broadcastInDim S16x512x64x64 ![] bcast_S_S16x512x64x64 main_cst
  let main_v2 : IVec S16x512x64x64 1 := cmpf .olt main_v0 main_v1
  let main_c : IVec S_ 1 := constantI S_ 1 1#1
  let main_v3 : IVec S_ 1 := (fun x v => Host.reduce IntOp.andi x v reducesTo_S16x512x64x64_S_d0_1_2_3 h_S_) main_v2 main_c
  let main_v4 : FVec F S16x512x64x64 .f32 := Host.absf main_arg1
  let main_cst_0 : FVec F S_ .f32 := constant S_ .f32 0x7F800000#32
  let main_v5 : FVec F S16x512x64x64 .f32 := broadcastInDim S16x512x64x64 ![] bcast_S_S16x512x64x64 main_cst_0
  let main_v6 : IVec S16x512x64x64 1 := cmpf .olt main_v4 main_v5
  let main_c_1 : IVec S_ 1 := constantI S_ 1 1#1
  let main_v7 : IVec S_ 1 := (fun x v => Host.reduce IntOp.andi x v reducesTo_S16x512x64x64_S_d0_1_2_3 h_S_) main_v6 main_c_1
  let main_v8 : IVec S_ 1 := andi main_v3 main_v7
  main_v8
-- ==== Kernel.lean ====
abbrev S16x512x64x64 : Shape := ⟨4, ![16, 512, 64, 64]⟩
abbrev S16x64x64 : Shape := ⟨3, ![16, 64, 64]⟩
abbrev S16x512x4096 : Shape := ⟨3, ![16, 512, 4096]⟩
abbrev S16x1x4096 : Shape := ⟨3, ![16, 1, 4096]⟩
abbrev S1x256x4096 : Shape := ⟨3, ![1, 256, 4096]⟩
abbrev S1x1x4096 : Shape := ⟨3, ![1, 1, 4096]⟩
abbrev S1x4096 : Shape := ⟨2, ![1, 4096]⟩
abbrev S16 : Shape := ⟨1, ![16]⟩
abbrev S16x1x1 : Shape := ⟨3, ![16, 1, 1]⟩
abbrev S_ : Shape := ⟨0, ![]⟩
abbrev S65536 : Shape := ⟨1, ![65536]⟩
abbrev S80 : Shape := ⟨1, ![80]⟩
abbrev S65536x1 : Shape := ⟨2, ![65536, 1]⟩

abbrev nBuf : Space → Nat
  | .hbm => 71
  | .vmem => 6
  | .smem => 0
  | _ => 0

abbrev bufTy : (tb : Table) → Fin (tcTables nBuf tb) → BufTy
  | .hbm, ⟨0, _⟩ => ⟨S16x512x64x64, .f32⟩
  | .hbm, ⟨1, _⟩ => ⟨S16x512x64x64, .f32⟩
  | .hbm, ⟨2, _⟩ => ⟨S16x64x64, .i32⟩
  | .hbm, ⟨3, _⟩ => ⟨S16x512x4096, .f32⟩
  | .hbm, ⟨4, _⟩ => ⟨S16x512x4096, .f32⟩
  | .hbm, ⟨5, _⟩ => ⟨S16x1x4096, .f32⟩
  | .hbm, ⟨6, _⟩ => ⟨S16x64x64, .f32⟩
  | .hbm, ⟨7, _⟩ => ⟨S16, .i32⟩
  | .hbm, ⟨8, _⟩ => ⟨S16x1x1, .i32⟩
  | .hbm, ⟨9, _⟩ => ⟨S_, .i32⟩
  | .hbm, ⟨10, _⟩ => ⟨S16x1x1, .i32⟩
  | .hbm, ⟨11, _⟩ => ⟨S16x1x1, .i32⟩
  | .hbm, ⟨12, _⟩ => ⟨S16x64x64, .i32⟩
  | .hbm, ⟨13, _⟩ => ⟨S16x64x64, .i32⟩
  | .hbm, ⟨14, _⟩ => ⟨S65536, .i32⟩
  | .hbm, ⟨15, _⟩ => ⟨S65536, .f32⟩
  | .hbm, ⟨16, _⟩ => ⟨S_, .f32⟩
  | .hbm, ⟨17, _⟩ => ⟨S80, .f32⟩
  | .hbm, ⟨18, _⟩ => ⟨S65536x1, .i32⟩
  | .hbm, ⟨19, _⟩ => ⟨S80, .f32⟩
  | .hbm, ⟨20, _⟩ => ⟨S_, .f32⟩
  | .hbm, ⟨21, _⟩ => ⟨S65536, .f32⟩
  | .hbm, ⟨22, _⟩ => ⟨S_, .f32⟩
  | .hbm, ⟨23, _⟩ => ⟨S80, .f32⟩
  | .hbm, ⟨24, _⟩ => ⟨S65536x1, .i32⟩
  | .hbm, ⟨25, _⟩ => ⟨S80, .f32⟩
  | .hbm, ⟨26, _⟩ => ⟨S_, .f32⟩
  | .hbm, ⟨27, _⟩ => ⟨S80, .f32⟩
  | .hbm, ⟨28, _⟩ => ⟨S80, .f32⟩
  | .hbm, ⟨29, _⟩ => ⟨S80, .f32⟩
  | .hbm, ⟨30, _⟩ => ⟨S_, .i32⟩
  | .hbm, ⟨31, _⟩ => ⟨S65536, .i32⟩
  | .hbm, ⟨32, _⟩ => ⟨S65536, .i1⟩
  | .hbm, ⟨33, _⟩ => ⟨S_, .i32⟩
  | .hbm, ⟨34, _⟩ => ⟨S65536, .i32⟩
  | .hbm, ⟨35, _⟩ => ⟨S65536, .i32⟩
  | .hbm, ⟨36, _⟩ => ⟨S65536, .i32⟩
  | .hbm, ⟨37, _⟩ => ⟨S65536x1, .i32⟩
  | .hbm, ⟨38, _⟩ => ⟨S65536, .f32⟩
  | .hbm, ⟨39, _⟩ => ⟨S16x64x64, .f32⟩
  | .hbm, ⟨40, _⟩ => ⟨S_, .f32⟩
  | .hbm, ⟨41, _⟩ => ⟨S_, .f32⟩
  | .hbm, ⟨42, _⟩ => ⟨S_, .f32⟩
  | .hbm, ⟨43, _⟩ => ⟨S_, .i1⟩
  | .hbm, ⟨44, _⟩ => ⟨S_, .f32⟩
  | .hbm, ⟨45, _⟩ => ⟨S_, .f32⟩
  | .hbm, ⟨46, _⟩ => ⟨S16x64x64, .f32⟩
  | .hbm, ⟨47, _⟩ => ⟨S16x64x64, .f32⟩
  | .hbm, ⟨48, _⟩ => ⟨S_, .f32⟩
  | .hbm, ⟨49, _⟩ => ⟨S16x64x64, .f32⟩
  | .hbm, ⟨50, _⟩ => ⟨S16x64x64, .f32⟩
  | .hbm, ⟨51, _⟩ => ⟨S16x64x64, .f32⟩
  | .hbm, ⟨52, _⟩ => ⟨S_, .f32⟩
  | .hbm, ⟨53, _⟩ => ⟨S_, .f32⟩
  | .hbm, ⟨54, _⟩ => ⟨S_, .f32⟩
  | .hbm, ⟨55, _⟩ => ⟨S16x64x64, .f32⟩
  | .hbm, ⟨56, _⟩ => ⟨S16x64x64, .f32⟩
  | .hbm, ⟨57, _⟩ => ⟨S_, .f32⟩
  | .hbm, ⟨58, _⟩ => ⟨S16x64x64, .f32⟩
  | .hbm, ⟨59, _⟩ => ⟨S16x64x64, .f32⟩
  | .hbm, ⟨60, _⟩ => ⟨S_, .f32⟩
  | .hbm, ⟨61, _⟩ => ⟨S16x64x64, .f32⟩
  | .hbm, ⟨62, _⟩ => ⟨S16x64x64, .f32⟩
  | .hbm, ⟨63, _⟩ => ⟨S_, .f32⟩
  | .hbm, ⟨64, _⟩ => ⟨S16x64x64, .f32⟩
  | .hbm, ⟨65, _⟩ => ⟨S16x64x64, .f32⟩
  | .hbm, ⟨66, _⟩ => ⟨S16x64x64, .f32⟩
  | .hbm, ⟨67, _⟩ => ⟨S_, .f32⟩
  | .hbm, ⟨68, _⟩ => ⟨S_, .f32⟩
  | .hbm, ⟨69, _⟩ => ⟨S_, .f32⟩
  | .hbm, ⟨70, _⟩ => ⟨S_, .f32⟩
  | .local _ .vmem, ⟨0, _⟩ => ⟨S1x256x4096, .f32⟩
  | .local _ .vmem, ⟨1, _⟩ => ⟨S1x256x4096, .f32⟩
  | .local _ .vmem, ⟨2, _⟩ => ⟨S1x256x4096, .f32⟩
  | .local _ .vmem, ⟨3, _⟩ => ⟨S1x256x4096, .f32⟩
  | .local _ .vmem, ⟨4, _⟩ => ⟨S1x1x4096, .f32⟩
  | .local _ .vmem, ⟨5, _⟩ => ⟨S1x1x4096, .f32⟩
  | _, _ => ⟨S16x512x64x64, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev main_c : Ref sig .tc := ⟨.hbm, 9, rfl⟩
abbrev main_v6 : Ref sig .tc := ⟨.hbm, 10, rfl⟩
abbrev main_v7 : Ref sig .tc := ⟨.hbm, 11, rfl⟩
abbrev main_v8 : Ref sig .tc := ⟨.hbm, 12, rfl⟩
abbrev main_v9 : Ref sig .tc := ⟨.hbm, 13, rfl⟩
abbrev main_v10 : Ref sig .tc := ⟨.hbm, 14, rfl⟩
abbrev main_v11 : Ref sig .tc := ⟨.hbm, 15, rfl⟩
abbrev main_cst : Ref sig .tc := ⟨.hbm, 16, rfl⟩
abbrev main_v12 : Ref sig .tc := ⟨.hbm, 17, rfl⟩
abbrev main_v13 : Ref sig .tc := ⟨.hbm, 18, rfl⟩
abbrev main_v14 : Ref sig .tc := ⟨.hbm, 19, rfl⟩
abbrev main_cst_0 : Ref sig .tc := ⟨.hbm, 20, rfl⟩
abbrev main_v15 : Ref sig .tc := ⟨.hbm, 21, rfl⟩
abbrev main_cst_1 : Ref sig .tc := ⟨.hbm, 22, rfl⟩
abbrev main_v16 : Ref sig .tc := ⟨.hbm, 23, rfl⟩
abbrev main_v17 : Ref sig .tc := ⟨.hbm, 24, rfl⟩
abbrev main_v18 : Ref sig .tc := ⟨.hbm, 25, rfl⟩
abbrev main_cst_2 : Ref sig .tc := ⟨.hbm, 26, rfl⟩
abbrev main_v19 : Ref sig .tc := ⟨.hbm, 27, rfl⟩
abbrev main_v20 : Ref sig .tc := ⟨.hbm, 28, rfl⟩
abbrev main_v21 : Ref sig .tc := ⟨.hbm, 29, rfl⟩
abbrev main_c_3 : Ref sig .tc := ⟨.hbm, 30, rfl⟩
abbrev main_v22 : Ref sig .tc := ⟨.hbm, 31, rfl⟩
abbrev main_v23 : Ref sig .tc := ⟨.hbm, 32, rfl⟩
abbrev main_c_4 : Ref sig .tc := ⟨.hbm, 33, rfl⟩
abbrev main_v24 : Ref sig .tc := ⟨.hbm, 34, rfl⟩
abbrev main_v25 : Ref sig .tc := ⟨.hbm, 35, rfl⟩
abbrev main_v26 : Ref sig .tc := ⟨.hbm, 36, rfl⟩
abbrev main_v27 : Ref sig .tc := ⟨.hbm, 37, rfl⟩
abbrev main_v28 : Ref sig .tc := ⟨.hbm, 38, rfl⟩
abbrev main_v29 : Ref sig .tc := ⟨.hbm, 39, rfl⟩
abbrev main_cst_5 : Ref sig .tc := ⟨.hbm, 40, rfl⟩
abbrev main_v30 : Ref sig .tc := ⟨.hbm, 41, rfl⟩
abbrev main_cst_6 : Ref sig .tc := ⟨.hbm, 42, rfl⟩
abbrev main_v31 : Ref sig .tc := ⟨.hbm, 43, rfl⟩
abbrev main_cst_7 : Ref sig .tc := ⟨.hbm, 44, rfl⟩
abbrev main_v32 : Ref sig .tc := ⟨.hbm, 45, rfl⟩
abbrev main_v33 : Ref sig .tc := ⟨.hbm, 46, rfl⟩
abbrev main_v34 : Ref sig .tc := ⟨.hbm, 47, rfl⟩
abbrev main_cst_8 : Ref sig .tc := ⟨.hbm, 48, rfl⟩
abbrev main_v35 : Ref sig .tc := ⟨.hbm, 49, rfl⟩
abbrev main_v36 : Ref sig .tc := ⟨.hbm, 50, rfl⟩
abbrev main_v37 : Ref sig .tc := ⟨.hbm, 51, rfl⟩
abbrev main_cst_9 : Ref sig .tc := ⟨.hbm, 52, rfl⟩
abbrev main_cst_10 : Ref sig .tc := ⟨.hbm, 53, rfl⟩
abbrev main_call1_v0 : Ref sig .tc := ⟨.hbm, 54, rfl⟩
abbrev main_call1_v1 : Ref sig .tc := ⟨.hbm, 55, rfl⟩
abbrev main_call1_v2 : Ref sig .tc := ⟨.hbm, 56, rfl⟩
abbrev main_call1_v3 : Ref sig .tc := ⟨.hbm, 57, rfl⟩
abbrev main_call1_v4 : Ref sig .tc := ⟨.hbm, 58, rfl⟩
abbrev main_v38 : Ref sig .tc := ⟨.hbm, 59, rfl⟩
abbrev main_cst_11 : Ref sig .tc := ⟨.hbm, 60, rfl⟩
abbrev main_v39 : Ref sig .tc := ⟨.hbm, 61, rfl⟩
abbrev main_v40 : Ref sig .tc := ⟨.hbm, 62, rfl⟩
abbrev main_cst_12 : Ref sig .tc := ⟨.hbm, 63, rfl⟩
abbrev main_v41 : Ref sig .tc := ⟨.hbm, 64, rfl⟩
abbrev main_v42 : Ref sig .tc := ⟨.hbm, 65, rfl⟩
abbrev main_v43 : Ref sig .tc := ⟨.hbm, 66, rfl⟩
abbrev main_cst_13 : Ref sig .tc := ⟨.hbm, 67, rfl⟩
abbrev main_v44 : Ref sig .tc := ⟨.hbm, 68, rfl⟩
abbrev main_cst_14 : Ref sig .tc := ⟨.hbm, 69, rfl⟩
abbrev main_v45 : Ref sig .tc := ⟨.hbm, 70, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨2, ![16, 2], ![false, false]⟩

def cc0_transform_0 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_1 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_2 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

abbrev stage0_0 : Fin 2 → Memref sig .tc .vmem S1x256x4096 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S1x256x4096 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 2 → Memref sig .tc .vmem S1x1x4096 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, false]

class Facts₀ : Prop where
  shapeCasts_S16x512x64x64_S16x512x4096 : S16x512x64x64.ShapeCasts S16x512x4096
  inb_S1x1x4096_S1x1x4096_0_0_0 : ∀ a, (![0, 0, 0] : Fin 3 → Nat) a + S1x1x4096.size a ≤ S1x1x4096.size a
  h_S1x1x4096 : 0 < S1x1x4096.numel
  inb_S1x256x4096_S1x256x4096_0_0_0 : ∀ a, (![0, 0, 0] : Fin 3 → Nat) a + S1x256x4096.size a ≤ S1x256x4096.size a
  h_S1x256x4096 : 0 < S1x256x4096.numel
  shapeCasts_S1x256x4096_S1x256x4096 : S1x256x4096.ShapeCasts S1x256x4096
  reduces_S1x256x4096_S1x4096 : S1x256x4096.Reduces [1] S1x4096
  shapeCasts_S1x4096_S1x1x4096 : S1x4096.ShapeCasts S1x1x4096
  shapeCasts_S1x1x4096_S1x1x4096 : S1x1x4096.ShapeCasts S1x1x4096
  shapeCasts_S16x1x4096_S16x64x64 : S16x1x4096.ShapeCasts S16x64x64
  bcast_S16_S16x1x1_0 : S16.BroadcastsInDim S16x1x1 (![0] : Fin 1 → Fin S16x1x1.rank)
  bcast_S_S16x1x1 : S_.BroadcastsInDim S16x1x1 (![] : Fin 0 → Fin S16x1x1.rank)
  bcast_S16x1x1_S16x64x64_0_1_2 : S16x1x1.BroadcastsInDim S16x64x64 (![0, 1, 2] : Fin 3 → Fin S16x64x64.rank)
  shapeCasts_S16x64x64_S65536 : S16x64x64.ShapeCasts S65536
  bcast_S_S80 : S_.BroadcastsInDim S80 (![] : Fin 0 → Fin S80.rank)
  bcast_S65536_S65536x1_0 : S65536.BroadcastsInDim S65536x1 (![0] : Fin 1 → Fin S65536x1.rank)
  bcast_S_S65536 : S_.BroadcastsInDim S65536 (![] : Fin 0 → Fin S65536.rank)
  shapeCasts_S65536_S16x64x64 : S65536.ShapeCasts S16x64x64
  reducesTo_S16x64x64_S_d0_1_2 : S16x64x64.ReducesTo [0, 1, 2] S_
  h_S_ : 0 < S_.numel
  bcast_S_S16x64x64 : S_.BroadcastsInDim S16x64x64 (![] : Fin 0 → Fin S16x64x64.rank)
  scatter_S80_S65536x1_S65536_n_0_0_1_wf : ScatterDims.WF S80 S65536x1 S65536 [] [0] [0] 1
  gather_S80_S65536x1_S65536_n_0_n_n_0_1_1_wf : GatherDims.WF S80 S65536x1 S65536 [] [0] [] [0] [] 1 ![1]
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S1x256x4096.size a ≤ S16x512x4096.size a
  hwx0_0 : ∀ i : grid0.Coords, EltTy.bits .f32 = 32 ∨ (Rect.block (s := S16x512x4096) S1x256x4096.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S1x256x4096.size a ≤ S16x512x4096.size a
  hwx0_1 : ∀ i : grid0.Coords, EltTy.bits .f32 = 32 ∨ (Rect.block (s := S16x512x4096) S1x256x4096.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S1x1x4096.size a ≤ S16x1x4096.size a
  hwx0_2 : ∀ i : grid0.Coords, EltTy.bits .f32 = 32 ∨ (Rect.block (s := S16x1x4096) S1x1x4096.size (cc0_transform_2 i) (hinb0_2 i)).WholeWords (EltTy.packing .f32)

variable [Facts₀]

def scatter_S80_S65536x1_S65536_n_0_0_1 : ScatterDims S80 S65536x1 S65536 where
  updateWindowDims := []
  insertedWindowDims := [0]
  scatterDimsToOperandDims := [0]
  indexVectorDim := 1
  wf := scatter_S80_S65536x1_S65536_n_0_0_1_wf
def gather_S80_S65536x1_S65536_n_0_n_n_0_1_1 : GatherDims S80 S65536x1 S65536 where
  offsetDims := []
  collapsedSliceDims := [0]
  operandBatchingDims := []
  startIndicesBatchingDims := []
  startIndexMap := [0]
  indexVectorDim := 1
  sliceSizes := ![1]
  wf := gather_S80_S65536x1_S65536_n_0_n_n_0_1_1_wf

abbrev win0_0 : Pipeline.Window sig grid0 :=
  Pipeline.Window.ofSpec (Memref.whole main_v0) S1x256x4096.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v1) S1x256x4096.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_v2) S1x1x4096.size cc0_transform_2 reads0_2 true false 2 stage0_2 sem0_2
    hrank0 hreads0_2 hinb0_2 nbuf0_2 (Memref.isWhole_whole _) hwx0_2 hstage0_2

abbrev win0 : Fin 3 → Pipeline.Window sig grid0 := fun | 0 => win0_0 | 1 => win0_1 | 2 => win0_2 | ⟨_ + 3, h⟩ => absurd h (Nat.not_lt.2 (Nat.le_add_left _ _))
abbrev spec0 : Fin 3 → Pipeline.WinSpec sig grid0.rank := fun w => (win0 w).toWinSpec

class Facts : Prop extends Facts₀ where

variable [Facts]
-- ==== ReferenceIdeal.lean ====
abbrev S16x512x64x64 : Shape := ⟨4, ![16, 512, 64, 64]⟩
abbrev S16x64x64 : Shape := ⟨3, ![16, 64, 64]⟩
abbrev S_ : Shape := ⟨0, ![]⟩
abbrev S16 : Shape := ⟨1, ![16]⟩
abbrev S16x1x1 : Shape := ⟨3, ![16, 1, 1]⟩
abbrev S65536 : Shape := ⟨1, ![65536]⟩
abbrev S80 : Shape := ⟨1, ![80]⟩
abbrev S65536x1 : Shape := ⟨2, ![65536, 1]⟩

abbrev nBuf : Space → Nat
  | .hbm => 74
  | .vmem => 0
  | .smem => 0
  | _ => 0

abbrev bufTy : (tb : Table) → Fin (tcTables nBuf tb) → BufTy
  | .hbm, ⟨0, _⟩ => ⟨S16x512x64x64, .f32⟩
  | .hbm, ⟨1, _⟩ => ⟨S16x512x64x64, .f32⟩
  | .hbm, ⟨2, _⟩ => ⟨S16x64x64, .i32⟩
  | .hbm, ⟨3, _⟩ => ⟨S16x512x64x64, .f32⟩
  | .hbm, ⟨4, _⟩ => ⟨S16x512x64x64, .f32⟩
  | .hbm, ⟨5, _⟩ => ⟨S_, .f32⟩
  | .hbm, ⟨6, _⟩ => ⟨S16x64x64, .f32⟩
  | .hbm, ⟨7, _⟩ => ⟨S_, .f32⟩
  | .hbm, ⟨8, _⟩ => ⟨S16x64x64, .f32⟩
  | .hbm, ⟨9, _⟩ => ⟨S16x64x64, .f32⟩
  | .hbm, ⟨10, _⟩ => ⟨S16, .i32⟩
  | .hbm, ⟨11, _⟩ => ⟨S16x1x1, .i32⟩
  | .hbm, ⟨12, _⟩ => ⟨S_, .i32⟩
  | .hbm, ⟨13, _⟩ => ⟨S16x1x1, .i32⟩
  | .hbm, ⟨14, _⟩ => ⟨S16x1x1, .i32⟩
  | .hbm, ⟨15, _⟩ => ⟨S16x64x64, .i32⟩
  | .hbm, ⟨16, _⟩ => ⟨S16x64x64, .i32⟩
  | .hbm, ⟨17, _⟩ => ⟨S65536, .i32⟩
  | .hbm, ⟨18, _⟩ => ⟨S65536, .f32⟩
  | .hbm, ⟨19, _⟩ => ⟨S_, .f32⟩
  | .hbm, ⟨20, _⟩ => ⟨S80, .f32⟩
  | .hbm, ⟨21, _⟩ => ⟨S65536x1, .i32⟩
  | .hbm, ⟨22, _⟩ => ⟨S80, .f32⟩
  | .hbm, ⟨23, _⟩ => ⟨S_, .f32⟩
  | .hbm, ⟨24, _⟩ => ⟨S65536, .f32⟩
  | .hbm, ⟨25, _⟩ => ⟨S_, .f32⟩
  | .hbm, ⟨26, _⟩ => ⟨S80, .f32⟩
  | .hbm, ⟨27, _⟩ => ⟨S65536x1, .i32⟩
  | .hbm, ⟨28, _⟩ => ⟨S80, .f32⟩
  | .hbm, ⟨29, _⟩ => ⟨S_, .f32⟩
  | .hbm, ⟨30, _⟩ => ⟨S80, .f32⟩
  | .hbm, ⟨31, _⟩ => ⟨S80, .f32⟩
  | .hbm, ⟨32, _⟩ => ⟨S80, .f32⟩
  | .hbm, ⟨33, _⟩ => ⟨S_, .i32⟩
  | .hbm, ⟨34, _⟩ => ⟨S65536, .i32⟩
  | .hbm, ⟨35, _⟩ => ⟨S65536, .i1⟩
  | .hbm, ⟨36, _⟩ => ⟨S_, .i32⟩
  | .hbm, ⟨37, _⟩ => ⟨S65536, .i32⟩
  | .hbm, ⟨38, _⟩ => ⟨S65536, .i32⟩
  | .hbm, ⟨39, _⟩ => ⟨S65536, .i32⟩
  | .hbm, ⟨40, _⟩ => ⟨S65536x1, .i32⟩
  | .hbm, ⟨41, _⟩ => ⟨S65536, .f32⟩
  | .hbm, ⟨42, _⟩ => ⟨S16x64x64, .f32⟩
  | .hbm, ⟨43, _⟩ => ⟨S_, .f32⟩
  | .hbm, ⟨44, _⟩ => ⟨S_, .f32⟩
  | .hbm, ⟨45, _⟩ => ⟨S_, .f32⟩
  | .hbm, ⟨46, _⟩ => ⟨S_, .i1⟩
  | .hbm, ⟨47, _⟩ => ⟨S_, .f32⟩
  | .hbm, ⟨48, _⟩ => ⟨S_, .f32⟩
  | .hbm, ⟨49, _⟩ => ⟨S16x64x64, .f32⟩
  | .hbm, ⟨50, _⟩ => ⟨S16x64x64, .f32⟩
  | .hbm, ⟨51, _⟩ => ⟨S_, .f32⟩
  | .hbm, ⟨52, _⟩ => ⟨S16x64x64, .f32⟩
  | .hbm, ⟨53, _⟩ => ⟨S16x64x64, .f32⟩
  | .hbm, ⟨54, _⟩ => ⟨S16x64x64, .f32⟩
  | .hbm, ⟨55, _⟩ => ⟨S_, .f32⟩
  | .hbm, ⟨56, _⟩ => ⟨S_, .f32⟩
  | .hbm, ⟨57, _⟩ => ⟨S_, .f32⟩
  | .hbm, ⟨58, _⟩ => ⟨S16x64x64, .f32⟩
  | .hbm, ⟨59, _⟩ => ⟨S16x64x64, .f32⟩
  | .hbm, ⟨60, _⟩ => ⟨S_, .f32⟩
  | .hbm, ⟨61, _⟩ => ⟨S16x64x64, .f32⟩
  | .hbm, ⟨62, _⟩ => ⟨S16x64x64, .f32⟩
  | .hbm, ⟨63, _⟩ => ⟨S_, .f32⟩
  | .hbm, ⟨64, _⟩ => ⟨S16x64x64, .f32⟩
  | .hbm, ⟨65, _⟩ => ⟨S16x64x64, .f32⟩
  | .hbm, ⟨66, _⟩ => ⟨S_, .f32⟩
  | .hbm, ⟨67, _⟩ => ⟨S16x64x64, .f32⟩
  | .hbm, ⟨68, _⟩ => ⟨S16x64x64, .f32⟩
  | .hbm, ⟨69, _⟩ => ⟨S16x64x64, .f32⟩
  | .hbm, ⟨70, _⟩ => ⟨S_, .f32⟩
  | .hbm, ⟨71, _⟩ => ⟨S_, .f32⟩
  | .hbm, ⟨72, _⟩ => ⟨S_, .f32⟩
  | .hbm, ⟨73, _⟩ => ⟨S_, .f32⟩
  | _, _ => ⟨S16x512x64x64, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_cst : Ref sig .tc := ⟨.hbm, 5, rfl⟩
abbrev main_v2 : Ref sig .tc := ⟨.hbm, 6, rfl⟩
abbrev main_cst_0 : Ref sig .tc := ⟨.hbm, 7, rfl⟩
abbrev main_v3 : Ref sig .tc := ⟨.hbm, 8, rfl⟩
abbrev main_v4 : Ref sig .tc := ⟨.hbm, 9, rfl⟩
abbrev main_v5 : Ref sig .tc := ⟨.hbm, 10, rfl⟩
abbrev main_v6 : Ref sig .tc := ⟨.hbm, 11, rfl⟩
abbrev main_c : Ref sig .tc := ⟨.hbm, 12, rfl⟩
abbrev main_v7 : Ref sig .tc := ⟨.hbm, 13, rfl⟩
abbrev main_v8 : Ref sig .tc := ⟨.hbm, 14, rfl⟩
abbrev main_v9 : Ref sig .tc := ⟨.hbm, 15, rfl⟩
abbrev main_v10 : Ref sig .tc := ⟨.hbm, 16, rfl⟩
abbrev main_v11 : Ref sig .tc := ⟨.hbm, 17, rfl⟩
abbrev main_v12 : Ref sig .tc := ⟨.hbm, 18, rfl⟩
abbrev main_cst_1 : Ref sig .tc := ⟨.hbm, 19, rfl⟩
abbrev main_v13 : Ref sig .tc := ⟨.hbm, 20, rfl⟩
abbrev main_v14 : Ref sig .tc := ⟨.hbm, 21, rfl⟩
abbrev main_v15 : Ref sig .tc := ⟨.hbm, 22, rfl⟩
abbrev main_cst_2 : Ref sig .tc := ⟨.hbm, 23, rfl⟩
abbrev main_v16 : Ref sig .tc := ⟨.hbm, 24, rfl⟩
abbrev main_cst_3 : Ref sig .tc := ⟨.hbm, 25, rfl⟩
abbrev main_v17 : Ref sig .tc := ⟨.hbm, 26, rfl⟩
abbrev main_v18 : Ref sig .tc := ⟨.hbm, 27, rfl⟩
abbrev main_v19 : Ref sig .tc := ⟨.hbm, 28, rfl⟩
abbrev main_cst_4 : Ref sig .tc := ⟨.hbm, 29, rfl⟩
abbrev main_v20 : Ref sig .tc := ⟨.hbm, 30, rfl⟩
abbrev main_v21 : Ref sig .tc := ⟨.hbm, 31, rfl⟩
abbrev main_v22 : Ref sig .tc := ⟨.hbm, 32, rfl⟩
abbrev main_c_5 : Ref sig .tc := ⟨.hbm, 33, rfl⟩
abbrev main_v23 : Ref sig .tc := ⟨.hbm, 34, rfl⟩
abbrev main_v24 : Ref sig .tc := ⟨.hbm, 35, rfl⟩
abbrev main_c_6 : Ref sig .tc := ⟨.hbm, 36, rfl⟩
abbrev main_v25 : Ref sig .tc := ⟨.hbm, 37, rfl⟩
abbrev main_v26 : Ref sig .tc := ⟨.hbm, 38, rfl⟩
abbrev main_v27 : Ref sig .tc := ⟨.hbm, 39, rfl⟩
abbrev main_v28 : Ref sig .tc := ⟨.hbm, 40, rfl⟩
abbrev main_v29 : Ref sig .tc := ⟨.hbm, 41, rfl⟩
abbrev main_v30 : Ref sig .tc := ⟨.hbm, 42, rfl⟩
abbrev main_cst_7 : Ref sig .tc := ⟨.hbm, 43, rfl⟩
abbrev main_v31 : Ref sig .tc := ⟨.hbm, 44, rfl⟩
abbrev main_cst_8 : Ref sig .tc := ⟨.hbm, 45, rfl⟩
abbrev main_v32 : Ref sig .tc := ⟨.hbm, 46, rfl⟩
abbrev main_cst_9 : Ref sig .tc := ⟨.hbm, 47, rfl⟩
abbrev main_v33 : Ref sig .tc := ⟨.hbm, 48, rfl⟩
abbrev main_v34 : Ref sig .tc := ⟨.hbm, 49, rfl⟩
abbrev main_v35 : Ref sig .tc := ⟨.hbm, 50, rfl⟩
abbrev main_cst_10 : Ref sig .tc := ⟨.hbm, 51, rfl⟩
abbrev main_v36 : Ref sig .tc := ⟨.hbm, 52, rfl⟩
abbrev main_v37 : Ref sig .tc := ⟨.hbm, 53, rfl⟩
abbrev main_v38 : Ref sig .tc := ⟨.hbm, 54, rfl⟩
abbrev main_cst_11 : Ref sig .tc := ⟨.hbm, 55, rfl⟩
abbrev main_cst_12 : Ref sig .tc := ⟨.hbm, 56, rfl⟩
abbrev main_call1_v0 : Ref sig .tc := ⟨.hbm, 57, rfl⟩
abbrev main_call1_v1 : Ref sig .tc := ⟨.hbm, 58, rfl⟩
abbrev main_call1_v2 : Ref sig .tc := ⟨.hbm, 59, rfl⟩
abbrev main_call1_v3 : Ref sig .tc := ⟨.hbm, 60, rfl⟩
abbrev main_call1_v4 : Ref sig .tc := ⟨.hbm, 61, rfl⟩
abbrev main_v39 : Ref sig .tc := ⟨.hbm, 62, rfl⟩
abbrev main_cst_13 : Ref sig .tc := ⟨.hbm, 63, rfl⟩
abbrev main_v40 : Ref sig .tc := ⟨.hbm, 64, rfl⟩
abbrev main_v41 : Ref sig .tc := ⟨.hbm, 65, rfl⟩
abbrev main_cst_14 : Ref sig .tc := ⟨.hbm, 66, rfl⟩
abbrev main_v42 : Ref sig .tc := ⟨.hbm, 67, rfl⟩
abbrev main_v43 : Ref sig .tc := ⟨.hbm, 68, rfl⟩
abbrev main_v44 : Ref sig .tc := ⟨.hbm, 69, rfl⟩
abbrev main_cst_15 : Ref sig .tc := ⟨.hbm, 70, rfl⟩
abbrev main_v45 : Ref sig .tc := ⟨.hbm, 71, rfl⟩
abbrev main_cst_16 : Ref sig .tc := ⟨.hbm, 72, rfl⟩
abbrev main_v46 : Ref sig .tc := ⟨.hbm, 73, rfl⟩

abbrev nD : Nat := 1
abbrev τ : Topo := Topo.v7x

variable {F : FTy → Type} [FloatOps F]

class Facts₀ : Prop where
  reducesTo_S16x512x64x64_S16x64x64_d1 : S16x512x64x64.ReducesTo [1] S16x64x64
  h_S_ : 0 < S_.numel
  bcast_S_S16x64x64 : S_.BroadcastsInDim S16x64x64 (![] : Fin 0 → Fin S16x64x64.rank)
  bcast_S16_S16x1x1_0 : S16.BroadcastsInDim S16x1x1 (![0] : Fin 1 → Fin S16x1x1.rank)
  bcast_S_S16x1x1 : S_.BroadcastsInDim S16x1x1 (![] : Fin 0 → Fin S16x1x1.rank)
  bcast_S16x1x1_S16x64x64_0_1_2 : S16x1x1.BroadcastsInDim S16x64x64 (![0, 1, 2] : Fin 3 → Fin S16x64x64.rank)
  shapeCasts_S16x64x64_S65536 : S16x64x64.ShapeCasts S65536
  bcast_S_S80 : S_.BroadcastsInDim S80 (![] : Fin 0 → Fin S80.rank)
  bcast_S65536_S65536x1_0 : S65536.BroadcastsInDim S65536x1 (![0] : Fin 1 → Fin S65536x1.rank)
  bcast_S_S65536 : S_.BroadcastsInDim S65536 (![] : Fin 0 → Fin S65536.rank)
  shapeCasts_S65536_S16x64x64 : S65536.ShapeCasts S16x64x64
  reducesTo_S16x64x64_S_d0_1_2 : S16x64x64.ReducesTo [0, 1, 2] S_
  scatter_S80_S65536x1_S65536_n_0_0_1_wf : ScatterDims.WF S80 S65536x1 S65536 [] [0] [0] 1
  gather_S80_S65536x1_S65536_n_0_n_n_0_1_1_wf : GatherDims.WF S80 S65536x1 S65536 [] [0] [] [0] [] 1 ![1]

variable [Facts₀]

def scatter_S80_S65536x1_S65536_n_0_0_1 : ScatterDims S80 S65536x1 S65536 where
  updateWindowDims := []
  insertedWindowDims := [0]
  scatterDimsToOperandDims := [0]
  indexVectorDim := 1
  wf := scatter_S80_S65536x1_S65536_n_0_0_1_wf
def gather_S80_S65536x1_S65536_n_0_n_n_0_1_1 : GatherDims S80 S65536x1 S65536 where
  offsetDims := []
  collapsedSliceDims := [0]
  operandBatchingDims := []
  startIndicesBatchingDims := []
  startIndexMap := [0]
  indexVectorDim := 1
  sliceSizes := ![1]
  wf := gather_S80_S65536x1_S65536_n_0_n_n_0_1_1_wf

class Facts : Prop extends Facts₀ where

variable [Facts]
-- ==== Proof.BitsAround.lean ====
/-
  The program around its one pipelined region: two reshapes of the feature arrays come before it, sixty-five
  host operations (the segment means, the normalisation, the final mean) after it.  Here: what the device
  buffers hold when the region is entered, that the later lines neither allocate nor write an array the
  region stages, that the three argument arrays are never written, each window's block of its array at a
  grid point, and the two conditions the kernel body branches on (first channel chunk / last channel chunk)
  in closed form over the 32 grid points.
-/
import proofs.«144198_j39676907888504_2_alg».proof.Proof.Gen.Kernel.Launch
import proofs.«144198_j39676907888504_2_alg».proof.Proof.Gen.Kernel.Skeleton
import proofs.«144198_j39676907888504_2_alg».proof.Proof.Gen.Kernel.Points
import Idealize.ShloMosaic.Lib.Pipeline.FrameBody
import Idealize.ShloMosaic.Lib.Pipeline.FrameSuffix
import Idealize.ShloMosaic.Lib.Ring
import Idealize.ShloMosaic.Lib.Tactic

set_option maxRecDepth 16384

noncomputable section

namespace Cert.Kernel.Frm

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## The lines around the region -/

/-- Core `c`'s buffer contents when the region is entered: the launch contents after the two reshapes. -/
abbrev V0 (c : Dev nD) : Valuation τ sig (Elt F) := StableHlo.after (List.flatten [hostOps0]) (fun b => m (c, b))
/-- The same read at a TensorCore reference. -/
abbrev V (c : Dev nD) (b : Ref sig .tc) : Buf (Elt F) ((c : Thread nD τ).loc b) := V0 m c (Proc.devRef .tc b)

/-- The lines after the region, stretch by stretch (a called function's lines are a stretch of their own). -/
abbrev tailOps : List (List (HloOp τ sig (Elt F))) := [hostOps1, hostOps1_1, hostOps1_2, hostOps1_3, hostOps1_4]

theorem hostOps0_fresh : (hostOps0 : List (HloOp τ sig (Elt F))).Forall fun op => op.fresh = ∅ := by
  simp only [List.Forall]; repeat' constructor
theorem hostOps1_fresh : (hostOps1 : List (HloOp τ sig (Elt F))).Forall fun op => op.fresh = ∅ := by
  simp only [List.Forall]; repeat' constructor
theorem hostOps1_1_fresh : (hostOps1_1 : List (HloOp τ sig (Elt F))).Forall fun op => op.fresh = ∅ := by
  simp only [List.Forall]; repeat' constructor
theorem hostOps1_2_fresh : (hostOps1_2 : List (HloOp τ sig (Elt F))).Forall fun op => op.fresh = ∅ := by
  simp only [List.Forall]; repeat' constructor
theorem hostOps1_3_fresh : (hostOps1_3 : List (HloOp τ sig (Elt F))).Forall fun op => op.fresh = ∅ := by
  simp only [List.Forall]; repeat' constructor
theorem hostOps1_4_fresh : (hostOps1_4 : List (HloOp τ sig (Elt F))).Forall fun op => op.fresh = ∅ := by
  simp only [List.Forall]; repeat' constructor

/-- @main is the two reshapes, the region, and then the later lines as the region's continuation. -/
theorem hmain (𝒱₀ : Variants) : Pipeline.HMainK (Ix := Unit) (Name := ℕ) (U := UR sig nD τ) (Lvl := ℕ) cfgs 0 defs₀ 𝒱₀ m (main (F := F)) (V m)
      (fun _ => Pipeline.chain [StableHlo.seq hostOps1, StableHlo.seq hostOps1_1, StableHlo.seq hostOps1_2, StableHlo.seq hostOps1_3, StableHlo.seq hostOps1_4]) :=
  Pipeline.hmain_around cfgs 0 defs₀ 𝒱₀ m main [hostOps0] tailOps (by simp only [List.Forall]; exact hostOps0_sub)
    (by simp only [List.Forall]; exact hostOps0_fresh) main_chain

/-- The later lines touch unscoped TensorCore buffers only: arrays of the pipeline or buffers that bypass it. -/
theorem sfx_sub : ∀ ops ∈ (tailOps : List (List (HloOp τ sig (Elt F)))), ∀ op ∈ ops,
    op.bufs ⊆ Pipeline.tailRefs sig Pipeline.Prefetch.none spec0 := by
  rw [Pipeline.tailRefs_none spec0 launch0.win.arr_unscoped]
  intro ops hops op hop
  simp only [tailOps, List.mem_cons, List.mem_nil_iff, or_false] at hops
  rcases hops with rfl | rfl | rfl | rfl | rfl
  · exact Pipeline.sub_ucRefs op ((List.forall_iff_forall_mem.mp hostOps1_sub) op hop)
  · exact Pipeline.sub_ucRefs op ((List.forall_iff_forall_mem.mp hostOps1_1_sub) op hop)
  · exact Pipeline.sub_ucRefs op ((List.forall_iff_forall_mem.mp hostOps1_2_sub) op hop)
  · exact Pipeline.sub_ucRefs op ((List.forall_iff_forall_mem.mp hostOps1_3_sub) op hop)
  · exact Pipeline.sub_ucRefs op ((List.forall_iff_forall_mem.mp hostOps1_4_sub) op hop)

/-- They allocate nothing. -/
theorem sfx_fresh : ∀ ops ∈ (tailOps : List (List (HloOp τ sig (Elt F)))), ∀ op ∈ ops, op.fresh = ∅ := by
  intro ops hops op hop
  simp only [tailOps, List.mem_cons, List.mem_nil_iff, or_false] at hops
  rcases hops with rfl | rfl | rfl | rfl | rfl
  · exact (List.forall_iff_forall_mem.mp hostOps1_fresh) op hop
  · exact (List.forall_iff_forall_mem.mp hostOps1_1_fresh) op hop
  · exact (List.forall_iff_forall_mem.mp hostOps1_2_fresh) op hop
  · exact (List.forall_iff_forall_mem.mp hostOps1_3_fresh) op hop
  · exact (List.forall_iff_forall_mem.mp hostOps1_4_fresh) op hop

theorem hostOps1_keeps : (hostOps1 : List (HloOp τ sig (Elt F))).Forall fun op => ∀ w, Proc.devRef .tc (Pipeline.arrRef spec0 w) ∉ op.writes := by
  simp only [hostOps1, List.Forall, StableHlo.nullary_writes, StableHlo.unary_writes, StableHlo.binary_writes, StableHlo.ternary_writes, StableHlo.quaternary_writes, StableHlo.reshape_writes, StableHlo.binaryIndexed_writes, Finset.mem_singleton]
  repeat' apply And.intro
  all_goals intro w; fin_cases w <;> exact StableHlo.devRef_ne_of_ne (by decide)
theorem hostOps1_1_keeps : (hostOps1_1 : List (HloOp τ sig (Elt F))).Forall fun op => ∀ w, Proc.devRef .tc (Pipeline.arrRef spec0 w) ∉ op.writes := by
  simp only [hostOps1_1, List.Forall, StableHlo.nullary_writes, StableHlo.unary_writes, StableHlo.binary_writes, StableHlo.ternary_writes, StableHlo.quaternary_writes, StableHlo.reshape_writes, StableHlo.binaryIndexed_writes, Finset.mem_singleton]
  repeat' apply And.intro
  all_goals intro w; fin_cases w <;> exact StableHlo.devRef_ne_of_ne (by decide)
theorem hostOps1_2_keeps : (hostOps1_2 : List (HloOp τ sig (Elt F))).Forall fun op => ∀ w, Proc.devRef .tc (Pipeline.arrRef spec0 w) ∉ op.writes := by
  simp only [hostOps1_2, List.Forall, StableHlo.nullary_writes, StableHlo.unary_writes, StableHlo.binary_writes, StableHlo.ternary_writes, StableHlo.quaternary_writes, StableHlo.reshape_writes, StableHlo.binaryIndexed_writes, Finset.mem_singleton]
  repeat' apply And.intro
  all_goals intro w; fin_cases w <;> exact StableHlo.devRef_ne_of_ne (by decide)
theorem hostOps1_3_keeps : (hostOps1_3 : List (HloOp τ sig (Elt F))).Forall fun op => ∀ w, Proc.devRef .tc (Pipeline.arrRef spec0 w) ∉ op.writes := by
  simp only [hostOps1_3, List.Forall, StableHlo.nullary_writes, StableHlo.unary_writes, StableHlo.binary_writes, StableHlo.ternary_writes, StableHlo.quaternary_writes, StableHlo.reshape_writes, StableHlo.binaryIndexed_writes, Finset.mem_singleton]
  repeat' apply And.intro
  all_goals intro w; fin_cases w <;> exact StableHlo.devRef_ne_of_ne (by decide)
theorem hostOps1_4_keeps : (hostOps1_4 : List (HloOp τ sig (Elt F))).Forall fun op => ∀ w, Proc.devRef .tc (Pipeline.arrRef spec0 w) ∉ op.writes := by
  simp only [hostOps1_4, List.Forall, StableHlo.nullary_writes, StableHlo.unary_writes, StableHlo.binary_writes, StableHlo.ternary_writes, StableHlo.quaternary_writes, StableHlo.reshape_writes, StableHlo.binaryIndexed_writes, Finset.mem_singleton]
  repeat' apply And.intro
  all_goals intro w; fin_cases w <;> exact StableHlo.devRef_ne_of_ne (by decide)

/-- And each writes only its own result buffer, which is none of the three arrays the region stages. -/
theorem sfx_keeps : ∀ ops ∈ (tailOps : List (List (HloOp τ sig (Elt F)))), ∀ op ∈ ops,
    ∀ w, Proc.devRef .tc (Pipeline.arrRef spec0 w) ∉ op.writes := by
  intro ops hops op hop
  simp only [tailOps, List.mem_cons, List.mem_nil_iff, or_false] at hops
  rcases hops with rfl | rfl | rfl | rfl | rfl
  · exact (List.forall_iff_forall_mem.mp hostOps1_keeps) op hop
  · exact (List.forall_iff_forall_mem.mp hostOps1_1_keeps) op hop
  · exact (List.forall_iff_forall_mem.mp hostOps1_2_keeps) op hop
  · exact (List.forall_iff_forall_mem.mp hostOps1_3_keeps) op hop
  · exact (List.forall_iff_forall_mem.mp hostOps1_4_keeps) op hop

/-- No line before the region writes argument 0: the region finds it as launched. -/
theorem V_main_arg0 (c : Dev nD) : V m c main_arg0 = m ((c : Thread nD τ).loc main_arg0) :=
  StableHlo.after_of_forall_not_mem (b := Proc.devRef .tc main_arg0) _ _ (List.forall_iff_forall_mem.mp (by
    simp only [hostOps0, List.flatten_cons, List.flatten_nil, List.append_nil, List.cons_append, List.nil_append, List.Forall, StableHlo.nullary_writes, StableHlo.unary_writes, StableHlo.binary_writes, StableHlo.ternary_writes, StableHlo.quaternary_writes, StableHlo.reshape_writes, StableHlo.binaryIndexed_writes, Finset.mem_singleton]
    repeat' apply And.intro
    all_goals exact StableHlo.devRef_ne_of_ne (by decide)))

/-- No line after the region writes argument 0 either, and it is no array of the pipeline: it ends as launched. -/
theorem W_main_arg0 (dats : (p : Fin _) → (c : Dev nD) → Dat τ (Elt F) Unit ℕ (UR sig nD τ) ℕ (cfgs p) c) (c : Dev nD) :
    Pipeline.afterTail₀ cfgs dats 0 (V0 m) tailOps c main_arg0 = m ((c : Thread nD τ).loc main_arg0) := by
  unfold Pipeline.afterTail₀
  rw [StableHlo.after_of_forall_not_mem (b := Proc.devRef .tc main_arg0) _ _ (List.forall_iff_forall_mem.mp (by
      simp only [tailOps, hostOps1, hostOps1_1, hostOps1_2, hostOps1_3, hostOps1_4, List.flatten_cons, List.flatten_nil, List.append_nil, List.cons_append, List.nil_append, List.Forall, StableHlo.nullary_writes, StableHlo.unary_writes, StableHlo.binary_writes, StableHlo.ternary_writes, StableHlo.quaternary_writes, StableHlo.reshape_writes, StableHlo.binaryIndexed_writes, Finset.mem_singleton]
      repeat' apply And.intro
      all_goals exact StableHlo.devRef_ne_of_ne (by decide))),
    Pipeline.withArrays_of_ne _ c (V0 m c) _ main_arg0 (by exact (by decide : ∀ w, Pipeline.arrRef spec0 w ≠ main_arg0))]
  exact V_main_arg0 m c

/-- No line before the region writes argument 1: the region finds it as launched. -/
theorem V_main_arg1 (c : Dev nD) : V m c main_arg1 = m ((c : Thread nD τ).loc main_arg1) :=
  StableHlo.after_of_forall_not_mem (b := Proc.devRef .tc main_arg1) _ _ (List.forall_iff_forall_mem.mp (by
    simp only [hostOps0, List.flatten_cons, List.flatten_nil, List.append_nil, List.cons_append, List.nil_append, List.Forall, StableHlo.nullary_writes, StableHlo.unary_writes, StableHlo.binary_writes, StableHlo.ternary_writes, StableHlo.quaternary_writes, StableHlo.reshape_writes, StableHlo.binaryIndexed_writes, Finset.mem_singleton]
    repeat' apply And.intro
    all_goals exact StableHlo.devRef_ne_of_ne (by decide)))

/-- No line after the region writes argument 1 either, and it is no array of the pipeline: it ends as launched. -/
theorem W_main_arg1 (dats : (p : Fin _) → (c : Dev nD) → Dat τ (Elt F) Unit ℕ (UR sig nD τ) ℕ (cfgs p) c) (c : Dev nD) :
    Pipeline.afterTail₀ cfgs dats 0 (V0 m) tailOps c main_arg1 = m ((c : Thread nD τ).loc main_arg1) := by
  unfold Pipeline.afterTail₀
  rw [StableHlo.after_of_forall_not_mem (b := Proc.devRef .tc main_arg1) _ _ (List.forall_iff_forall_mem.mp (by
      simp only [tailOps, hostOps1, hostOps1_1, hostOps1_2, hostOps1_3, hostOps1_4, List.flatten_cons, List.flatten_nil, List.append_nil, List.cons_append, List.nil_append, List.Forall, StableHlo.nullary_writes, StableHlo.unary_writes, StableHlo.binary_writes, StableHlo.ternary_writes, StableHlo.quaternary_writes, StableHlo.reshape_writes, StableHlo.binaryIndexed_writes, Finset.mem_singleton]
      repeat' apply And.intro
      all_goals exact StableHlo.devRef_ne_of_ne (by decide))),
    Pipeline.withArrays_of_ne _ c (V0 m c) _ main_arg1 (by exact (by decide : ∀ w, Pipeline.arrRef spec0 w ≠ main_arg1))]
  exact V_main_arg1 m c

/-- No line before the region writes argument 2: the region finds it as launched. -/
theorem V_main_arg2 (c : Dev nD) : V m c main_arg2 = m ((c : Thread nD τ).loc main_arg2) :=
  StableHlo.after_of_forall_not_mem (b := Proc.devRef .tc main_arg2) _ _ (List.forall_iff_forall_mem.mp (by
    simp only [hostOps0, List.flatten_cons, List.flatten_nil, List.append_nil, List.cons_append, List.nil_append, List.Forall, StableHlo.nullary_writes, StableHlo.unary_writes, StableHlo.binary_writes, StableHlo.ternary_writes, StableHlo.quaternary_writes, StableHlo.reshape_writes, StableHlo.binaryIndexed_writes, Finset.mem_singleton]
    repeat' apply And.intro
    all_goals exact StableHlo.devRef_ne_of_ne (by decide)))

/-- No line after the region writes argument 2 either, and it is no array of the pipeline: it ends as launched. -/
theorem W_main_arg2 (dats : (p : Fin _) → (c : Dev nD) → Dat τ (Elt F) Unit ℕ (UR sig nD τ) ℕ (cfgs p) c) (c : Dev nD) :
    Pipeline.afterTail₀ cfgs dats 0 (V0 m) tailOps c main_arg2 = m ((c : Thread nD τ).loc main_arg2) := by
  unfold Pipeline.afterTail₀
  rw [StableHlo.after_of_forall_not_mem (b := Proc.devRef .tc main_arg2) _ _ (List.forall_iff_forall_mem.mp (by
      simp only [tailOps, hostOps1, hostOps1_1, hostOps1_2, hostOps1_3, hostOps1_4, List.flatten_cons, List.flatten_nil, List.append_nil, List.cons_append, List.nil_append, List.Forall, StableHlo.nullary_writes, StableHlo.unary_writes, StableHlo.binary_writes, StableHlo.ternary_writes, StableHlo.quaternary_writes, StableHlo.reshape_writes, StableHlo.binaryIndexed_writes, Finset.mem_singleton]
      repeat' apply And.intro
      all_goals exact StableHlo.devRef_ne_of_ne (by decide))),
    Pipeline.withArrays_of_ne _ c (V0 m c) _ main_arg2 (by exact (by decide : ∀ w, Pipeline.arrRef spec0 w ≠ main_arg2))]
  exact V_main_arg2 m c

/-! ## The windows' blocks -/

/-- Window `w`'s block at grid point `t`, read off its array as the region finds it. -/
def iblk (c : Dev nD) (w : Fin cfg0.W) (t : Fin cfg0.N) : ((cfg0.win w).xblock (cfg0.grid.coords t)).Idx → Elt F (cfg0.win w).elt :=
  ((cfg0.win w).blk t).view.read (Elt F) (V m c (Pipeline.arrRef spec0 w))

/-- Input window 0's current staging buffer holds its block of the array at every point, for any proof data whose
    array is the region-entry contents and whose body leaves the block in place. -/
theorem before0_0_of {c : Dev nD} (dat : Dat τ (Elt F) Unit ℕ (UR sig nD τ) ℕ cfg0 c) (hA : dat.A 0 = V m c (Pipeline.arrRef spec0 0))
    (hafter : ∀ t, dat.after 0 t = iblk m c 0 t) (t : Fin cfg0.N) (d) : dat.before 0 t d = iblk m c 0 t :=
  (dat.before_in_eq_fetched 0 rfl (fun _ => rfl) (fun _ _ _ => rfl) (fun t => by rw [hafter]; unfold Dat.blockOf iblk; rw [hA]; try rfl) t d).trans
    (by unfold Dat.fetched Dat.blockOf iblk; rw [hA]; try rfl)

/-- Input window 1's current staging buffer holds its block of the array at every point, for any proof data whose
    array is the region-entry contents and whose body leaves the block in place. -/
theorem before0_1_of {c : Dev nD} (dat : Dat τ (Elt F) Unit ℕ (UR sig nD τ) ℕ cfg0 c) (hA : dat.A 1 = V m c (Pipeline.arrRef spec0 1))
    (hafter : ∀ t, dat.after 1 t = iblk m c 1 t) (t : Fin cfg0.N) (d) : dat.before 1 t d = iblk m c 1 t :=
  (dat.before_in_eq_fetched 1 rfl (fun _ => rfl) (fun _ _ _ => rfl) (fun t => by rw [hafter]; unfold Dat.blockOf iblk; rw [hA]; try rfl) t d).trans
    (by unfold Dat.fetched Dat.blockOf iblk; rw [hA]; try rfl)

/-! ## The frame claim from a frame run -/

/-- A run ending with every bypassing buffer as the later lines leave it leaves the three argument arrays as
    launched: none of them is staged by the region (the region stages their reshapes) and no line writes one. -/
theorem frame_of (dats : (p : Fin 1) → (c : Dev nD) → Dat τ (Elt F) Unit ℕ (UR sig nD τ) ℕ (cfgs p) c)
    (h : θ_run defs (onTc (τ := τ) (main (F := F))) (s₀ m ρ) (Pipeline.FramePost cfgs dats 0 (Pipeline.afterTail₀ cfgs dats 0 (V0 m) tailOps))) :
    θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)) :=
  (θ_run defs _ _).mono (fun _ h c =>
    ⟨((h c).2 main_arg0 (Pipeline.mem_restRefs_of main_arg0 (by decide) (by decide))).trans (W_main_arg0 m dats c),
     ((h c).2 main_arg1 (Pipeline.mem_restRefs_of main_arg1 (by decide) (by decide))).trans (W_main_arg1 m dats c),
     ((h c).2 main_arg2 (Pipeline.mem_restRefs_of main_arg2 (by decide) (by decide))).trans (W_main_arg2 m dats c)⟩) h

/-! ## The body's two branches -/

/-- The body zeroes the accumulator when the point is a first channel chunk (grid coordinate 1 is 0). -/
abbrev cond0_0 (i : grid0.Coords) : Prop := (Scalar.cmpi .ne (Scalar.extui (Scalar.cmpi .eq (BitVec.ofNat 32 (i 1).val) 0#32)) 0#32) = 1#1
/-- Those are the even points. -/
theorem hcond0_0 : ∀ t : Fin cfg0.N, cond0_0 (grid0.coords t) ↔ t.val % 2 = 0 :=
  (by decide +kernel : ∀ t : Fin grid0.N, cond0_0 (grid0.coords t) ↔ t.val % 2 = 0)

/-- The body scales the accumulator when the point is a last channel chunk (grid coordinate 1 is 1). -/
abbrev cond0_1 (i : grid0.Coords) : Prop := (Scalar.cmpi .ne (Scalar.extui (Scalar.cmpi .eq (BitVec.ofNat 32 (i 1).val) 1#32)) 0#32) = 1#1
/-- Those are the odd points. -/
theorem hcond0_1 : ∀ t : Fin cfg0.N, cond0_1 (grid0.coords t) ↔ t.val % 2 = 1 :=
  (by decide +kernel : ∀ t : Fin grid0.N, cond0_1 (grid0.coords t) ↔ t.val % 2 = 1)

/-- The output window is never idle: the body stores into it at every point. -/
theorem liveAt0_2 : ∀ t : Fin cfg0.N, cfg0.idle 2 (grid0.coords t) = false := by decide +kernel
theorem liveAt0_0 : ∀ t : Fin cfg0.N, cfg0.idle 0 (grid0.coords t) = false := by decide +kernel
theorem liveAt0_1 : ∀ t : Fin cfg0.N, cfg0.idle 1 (grid0.coords t) = false := by decide +kernel

/-! ## The staging memrefs at a point -/

/-- One staging buffer of the output window, through which its contents are stated. -/
abbrev VO0_2 : View sig .tc .vmem S1x1x4096 .f32 := (Memref.whole cc0_stg2_0 : Memref sig .tc .vmem S1x1x4096 .f32).view
/-- Each window's current staging memref at point `t`, as the pipeline passes it to the body, and its wholeness. -/
abbrev ms0_0 (t : Fin cfg0.N) : Memref sig .tc .vmem S1x256x4096 .f32 := win0_0.stage (cfg0.slots t 0)
abbrev hs0_0 (t : Fin cfg0.N) : (ms0_0 t).IsWhole := hstage0_0 ((cfg0.slots t 0).cast nbuf0_0)
abbrev ms0_1 (t : Fin cfg0.N) : Memref sig .tc .vmem S1x256x4096 .f32 := win0_1.stage (cfg0.slots t 1)
abbrev hs0_1 (t : Fin cfg0.N) : (ms0_1 t).IsWhole := hstage0_1 ((cfg0.slots t 1).cast nbuf0_1)
abbrev ms0_2 (t : Fin cfg0.N) : Memref sig .tc .vmem S1x1x4096 .f32 := win0_2.stage (cfg0.slots t 2)
abbrev hs0_2 (t : Fin cfg0.N) : (ms0_2 t).IsWhole := hstage0_2 ((cfg0.slots t 2).cast nbuf0_2)

end Cert.Kernel.Frm

end
-- ==== Proof.BitsFirstChunk.lean ====
/-
  The kernel body at a grid point that is a FIRST channel chunk (grid coordinate 1 is 0): the accumulator block is
  zeroed, the chunk's 256 squared differences are added into it, and the closing scale is skipped.  Run on any
  whole staging memrefs, the two inputs at given contents, the output at anything; what the stores leave in the
  output's buffer is found by the run itself, as a list of pieces.
-/
import proofs.«144198_j39676907888504_2_alg».proof.Proof.BitsAround

set_option maxRecDepth 16384

noncomputable section

namespace Cert.Kernel.Frm

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

set_option maxHeartbeats 4000000 in
/-- The pieces the body's stores leave in the output's staging memref at such a point, with the proof that the
    body runs from the three memrefs owned whole to the continuation holding the inputs as they were and the
    output's buffer with those pieces written. -/
noncomputable def kernelRun0_A (c : Dev nD) (i : grid0.Coords) (arg2 : Memref sig .tc .vmem S1x256x4096 .f32) (harg2 : arg2.IsWhole) (arg3 : Memref sig .tc .vmem S1x256x4096 .f32) (harg3 : arg3.IsWhole) (arg4 : Memref sig .tc .vmem S1x1x4096 .f32) (harg4 : arg4.IsWhole) (hc0 : cond0_0 i) (hc1 : ¬cond0_1 i)
    (x0 : Vec F S1x256x4096 .f32) (x1 : Vec F S1x256x4096 .f32) :
    { L2 : List (View.Piece (Elt F) S1x1x4096 .f32) //
      ∀ (E : Set ℕ) (K : PUnit → sProp 𝕄),
        iprop(owns (c : Thread nD τ) arg2 fullShare x0 ∗ owns (c : Thread nD τ) arg3 fullShare x1 ∗ (∃ d, owns (c : Thread nD τ) arg4 fullShare d)
            ∗ (iprop(owns (c : Thread nD τ) arg2 fullShare x0 ∗ owns (c : Thread nD τ) arg3 fullShare x1 ∗ (∃ f, arg4.view.loc (c : Thread nD τ) ↦[arg4.view.set]{fullShare} arg4.view.writes (Elt F) f L2)) -∗ K ⟨⟩))
          ⊢ wp frame (wpE (defs₀ (F := F)) Variants.none c none) E (cc0__loss_metric_kernel i arg2 harg2 arg3 harg3 arg4 harg4) K } := by
  refine ⟨?_, fun E K => ?run⟩
  case run =>
    simp only [cc0__loss_metric_kernel_eq_skeleton]; unfold cc0__loss_metric_kernel_skel
    unfold owns
    iintro ⟨⟨%f0, %hf0, H0⟩, ⟨%f1, %hf1, H1⟩, ⟨%d2, %f2, -, H2⟩, Hk⟩
    obtain rfl := harg2.eq_unread hf0; obtain rfl := harg3.eq_unread hf1
    sl_exec (disch := first | exact hc0 | exact hc1)
    sl_step
    iapply Hk
    isplitl [H0]
    · iexists _; isplitr; · ipureintro; exact harg2.read_unread _
      iexact H0
    isplitl [H1]
    · iexists _; isplitr; · ipureintro; exact harg3.read_unread _
      iexact H1
    iexists _; iexact H2

end Cert.Kernel.Frm

end
-- ==== Proof.BitsLastChunk.lean ====
/-
  The kernel body at a grid point that is a LAST channel chunk (grid coordinate 1 is 1): nothing is zeroed, the
  chunk's 256 squared differences are added onto what the point before left in the accumulator block, and the sum
  is scaled by 1/512.  Run on any whole staging memrefs, the two inputs at given contents, the output at the
  contents the point before left; what the stores leave in the output's buffer is found by the run itself.
-/
import proofs.«144198_j39676907888504_2_alg».proof.Proof.BitsFirstChunk

set_option maxRecDepth 16384

noncomputable section

namespace Cert.Kernel.Frm

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

set_option maxHeartbeats 4000000 in
/-- The pieces the body's stores leave in the output's staging memref at such a point, with the proof that the
    body runs from the three memrefs owned whole to the continuation holding the inputs as they were and the
    output's buffer with those pieces written. -/
noncomputable def kernelRun0_B (c : Dev nD) (i : grid0.Coords) (arg2 : Memref sig .tc .vmem S1x256x4096 .f32) (harg2 : arg2.IsWhole) (arg3 : Memref sig .tc .vmem S1x256x4096 .f32) (harg3 : arg3.IsWhole) (arg4 : Memref sig .tc .vmem S1x1x4096 .f32) (harg4 : arg4.IsWhole) (hc0 : ¬cond0_0 i) (hc1 : cond0_1 i)
    (x0 : Vec F S1x256x4096 .f32) (x1 : Vec F S1x256x4096 .f32) (xo2 : Vec F S1x1x4096 .f32) :
    { L2 : List (View.Piece (Elt F) S1x1x4096 .f32) //
      ∀ (E : Set ℕ) (K : PUnit → sProp 𝕄),
        iprop(owns (c : Thread nD τ) arg2 fullShare x0 ∗ owns (c : Thread nD τ) arg3 fullShare x1 ∗ owns (c : Thread nD τ) arg4 fullShare xo2
            ∗ (iprop(owns (c : Thread nD τ) arg2 fullShare x0 ∗ owns (c : Thread nD τ) arg3 fullShare x1 ∗ (∃ f, arg4.view.loc (c : Thread nD τ) ↦[arg4.view.set]{fullShare} arg4.view.writes (Elt F) f L2)) -∗ K ⟨⟩))
          ⊢ wp frame (wpE (defs₀ (F := F)) Variants.none c none) E (cc0__loss_metric_kernel i arg2 harg2 arg3 harg3 arg4 harg4) K } := by
  refine ⟨?_, fun E K => ?run⟩
  case run =>
    simp only [cc0__loss_metric_kernel_eq_skeleton]; unfold cc0__loss_metric_kernel_skel
    unfold owns
    iintro ⟨⟨%f0, %hf0, H0⟩, ⟨%f1, %hf1, H1⟩, ⟨%f2, %hf2, H2⟩, Hk⟩
    obtain rfl := harg2.eq_unread hf0; obtain rfl := harg3.eq_unread hf1; obtain rfl := harg4.eq_unread hf2
    sl_exec (disch := first | exact hc0 | exact hc1)
    sl_step
    iapply Hk
    isplitl [H0]
    · iexists _; isplitr; · ipureintro; exact harg2.read_unread _
      iexact H0
    isplitl [H1]
    · iexists _; isplitr; · ipureintro; exact harg3.read_unread _
      iexact H1
    iexists _; iexact H2

end Cert.Kernel.Frm

end
-- ==== Proof.BitsFrame.lean ====
/-
  The accumulation over the grid and the run of the whole program.  Grid point t = 2·b + k handles batch
  row b and channel chunk k.  At an even point the body leaves in the output's staging buffer the chunk's sum of
  squared differences over zero; at the odd point after it, that plus the second chunk's sum, scaled; the buffer
  is written back at the odd points only, so the odd point finds what the even point left.  From this: the
  proof data of the pipeline, the body's obligation at every point, the run of @main with every array of the
  pipeline and every other buffer named, and the frame (the three argument arrays end as launched).
-/
import proofs.«144198_j39676907888504_2_alg».proof.Proof.BitsLastChunk

set_option maxRecDepth 16384

noncomputable section

namespace Cert.Kernel.Frm

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## What a point leaves in the output's staging buffer -/

/-- At a first-chunk point the body's stores tile the output block, so they cover it. -/
theorem cover0_A_2 (c : Dev nD) (i : grid0.Coords) (arg2 : Memref sig .tc .vmem S1x256x4096 .f32) (harg2 : arg2.IsWhole) (arg3 : Memref sig .tc .vmem S1x256x4096 .f32) (harg3 : arg3.IsWhole) (arg4 : Memref sig .tc .vmem S1x1x4096 .f32) (harg4 : arg4.IsWhole) (hc0 : cond0_0 i) (hc1 : ¬cond0_1 i)
    (x0 : Vec F S1x256x4096 .f32) (x1 : Vec F S1x256x4096 .f32) (y : S1x1x4096.Idx) :
    ∃ pc ∈ (kernelRun0_A c i arg2 harg2 arg3 harg3 arg4 harg4 hc0 hc1 x0 x1).1, y ∈ pc.1.set :=
  View.cover_of_tiledL (kernelRun0_A c i arg2 harg2 arg3 harg3 arg4 harg4 hc0 hc1 x0 x1).1 S1x1x4096.size (by sl_kernel_rfl) y

/-- What a first-chunk point leaves in the output's staging buffer: its stores read back. -/
def out0_A_2 (c : Dev nD) (i : grid0.Coords) (arg2 : Memref sig .tc .vmem S1x256x4096 .f32) (harg2 : arg2.IsWhole) (arg3 : Memref sig .tc .vmem S1x256x4096 .f32) (harg3 : arg3.IsWhole) (arg4 : Memref sig .tc .vmem S1x1x4096 .f32) (harg4 : arg4.IsWhole) (hc0 : cond0_0 i) (hc1 : ¬cond0_1 i)
    (x0 : Vec F S1x256x4096 .f32) (x1 : Vec F S1x256x4096 .f32) : Vec F S1x1x4096 .f32 :=
  VO0_2.read (Elt F) (VO0_2.writes (Elt F) VO0_2.junk (kernelRun0_A c i arg2 harg2 arg3 harg3 arg4 harg4 hc0 hc1 x0 x1).1)

/-- At a last-chunk point too the stores cover the output block. -/
theorem cover0_B_2 (c : Dev nD) (i : grid0.Coords) (arg2 : Memref sig .tc .vmem S1x256x4096 .f32) (harg2 : arg2.IsWhole) (arg3 : Memref sig .tc .vmem S1x256x4096 .f32) (harg3 : arg3.IsWhole) (arg4 : Memref sig .tc .vmem S1x1x4096 .f32) (harg4 : arg4.IsWhole) (hc0 : ¬cond0_0 i) (hc1 : cond0_1 i)
    (x0 : Vec F S1x256x4096 .f32) (x1 : Vec F S1x256x4096 .f32) (xo2 : Vec F S1x1x4096 .f32) (y : S1x1x4096.Idx) :
    ∃ pc ∈ (kernelRun0_B c i arg2 harg2 arg3 harg3 arg4 harg4 hc0 hc1 x0 x1 xo2).1, y ∈ pc.1.set :=
  View.cover_of_tiledL (kernelRun0_B c i arg2 harg2 arg3 harg3 arg4 harg4 hc0 hc1 x0 x1 xo2).1 S1x1x4096.size (by sl_kernel_rfl) y

/-- What a last-chunk point leaves there, given what the point before left (`xo2`). -/
def out0_B_2 (c : Dev nD) (i : grid0.Coords) (arg2 : Memref sig .tc .vmem S1x256x4096 .f32) (harg2 : arg2.IsWhole) (arg3 : Memref sig .tc .vmem S1x256x4096 .f32) (harg3 : arg3.IsWhole) (arg4 : Memref sig .tc .vmem S1x1x4096 .f32) (harg4 : arg4.IsWhole) (hc0 : ¬cond0_0 i) (hc1 : cond0_1 i)
    (x0 : Vec F S1x256x4096 .f32) (x1 : Vec F S1x256x4096 .f32) (xo2 : Vec F S1x1x4096 .f32) : Vec F S1x1x4096 .f32 :=
  VO0_2.read (Elt F) (VO0_2.writes (Elt F) VO0_2.junk (kernelRun0_B c i arg2 harg2 arg3 harg3 arg4 harg4 hc0 hc1 x0 x1 xo2).1)

/-- An even point is a first chunk and no last chunk. -/
theorem evenPoint (t : Fin cfg0.N) (h : t.val % 2 = 0) : cond0_0 (grid0.coords t) ∧ ¬cond0_1 (grid0.coords t) :=
  ⟨(hcond0_0 t).mpr h, fun h1 => by have := (hcond0_1 t).mp h1; omega⟩
/-- An odd point is a last chunk and no first chunk. -/
theorem oddPoint (t : Fin cfg0.N) (h : ¬t.val % 2 = 0) : ¬cond0_0 (grid0.coords t) ∧ cond0_1 (grid0.coords t) :=
  ⟨fun h0 => h ((hcond0_0 t).mp h0), (hcond0_1 t).mpr (by omega)⟩

/-- The output's staging buffer after an even point `t`, from the point's two input blocks. -/
def outEven (c : Dev nD) (t : Fin cfg0.N) (h : t.val % 2 = 0) : Vec F S1x1x4096 .f32 :=
  out0_A_2 c (grid0.coords t) (ms0_0 t) (hs0_0 t) (ms0_1 t) (hs0_1 t) (ms0_2 t) (hs0_2 t) (evenPoint t h).1 (evenPoint t h).2 (iblk m c 0 t) (iblk m c 1 t)
/-- The same after an odd point, from the point's input blocks and what the even point before it left. -/
def outOdd (c : Dev nD) (t : Fin cfg0.N) (h : ¬t.val % 2 = 0) (prev : Vec F S1x1x4096 .f32) : Vec F S1x1x4096 .f32 :=
  out0_B_2 c (grid0.coords t) (ms0_0 t) (hs0_0 t) (ms0_1 t) (hs0_1 t) (ms0_2 t) (hs0_2 t) (oddPoint t h).1 (oddPoint t h).2 (iblk m c 0 t) (iblk m c 1 t) prev

/-- The accumulation: what the output's staging buffer holds after the body at position `n`. -/
def outsAt0 (c : Dev nD) : (n : ℕ) → n < cfg0.N → Vec F S1x1x4096 .f32
  | 0, hn => outEven m c ⟨0, hn⟩ (Nat.zero_mod _)
  | n + 1, hn =>
    if h0 : (n + 1) % 2 = 0 then outEven m c ⟨n + 1, hn⟩ h0
    else outOdd m c ⟨n + 1, hn⟩ h0 (outsAt0 c n (Nat.lt_of_succ_lt hn))

theorem outsAt0_even (c : Dev nD) (t : Fin cfg0.N) (h0 : t.val % 2 = 0) :
    outsAt0 m c t.val t.isLt = outEven m c t h0 := by
  obtain ⟨n, hn⟩ := t
  cases n with
  | zero => exact rfl
  | succ n => exact (dif_pos h0).trans rfl

theorem outsAt0_odd (c : Dev nD) (t : Fin cfg0.N) (h0 : ¬t.val % 2 = 0) :
    outsAt0 m c t.val t.isLt = outOdd m c t h0 (outsAt0 m c (t.val - 1) (Nat.lt_of_le_of_lt (Nat.sub_le _ _) t.isLt)) := by
  obtain ⟨n, hn⟩ := t
  cases n with
  | zero => exact (by exfalso; (try dsimp only at h0); exact absurd (Nat.zero_mod _) h0)
  | succ n => exact (dif_neg h0).trans rfl

/-! ## The pipeline's proof data -/

/-- The arrays as the region finds them; after the body at a point each input's buffer at its block and the
    output's at the accumulation; the region invariant the scoped rest and the random-number register; nothing owed. -/
def dats (_ : Fin 1) (c : Dev nD) : Dat τ (Elt F) Unit ℕ (UR sig nD τ) ℕ cfg0 c where
  A w := V m c (Pipeline.arrRef spec0 w)
  after w t := match w with
    | ⟨0, _⟩ => iblk m c 0 t
    | ⟨1, _⟩ => iblk m c 1 t
    | ⟨2, _⟩ => (outsAt0 m c t.val t.isLt)
  Φ _ := Pipeline.ΦA spec0 c
  q _ := fullShare
  owed _ := 0

theorem A_eq (c : Dev nD) (w : Fin cfg0.W) : (dats m 0 c).A w = V m c (Pipeline.arrRef spec0 w) := by
  dsimp only [dats]

theorem after0_0 (c : Dev nD) (t : Fin cfg0.N) : (dats m 0 c).after 0 t = iblk m c 0 t := by dsimp only [dats]
theorem after0_1 (c : Dev nD) (t : Fin cfg0.N) : (dats m 0 c).after 1 t = iblk m c 1 t := by dsimp only [dats]
theorem after0_2 (c : Dev nD) (t : Fin cfg0.N) : (dats m 0 c).after 2 t = (outsAt0 m c t.val t.isLt) := by dsimp only [dats]

theorem before0_0 (c : Dev nD) (t : Fin cfg0.N) (d) : (dats m 0 c).before 0 t d = iblk m c 0 t :=
  before0_0_of m (dats m 0 c) (A_eq m c 0) (after0_0 m c) t d
theorem before0_1 (c : Dev nD) (t : Fin cfg0.N) (d) : (dats m 0 c).before 1 t d = iblk m c 1 t :=
  before0_1_of m (dats m 0 c) (A_eq m c 1) (after0_1 m c) t d
/-- At an odd point the output's current staging buffer holds what the body left at the even point before: the
    buffer is written back at odd points only. -/
theorem before0_2_odd (c : Dev nD) (t : Fin cfg0.N) (h0 : ¬t.val % 2 = 0) (d) :
    (dats m 0 c).before 2 t d = (outsAt0 m c (t.val - 1) (Nat.lt_of_le_of_lt (Nat.sub_le _ _) t.isLt)) := by
  have hN : t.val < 32 := lt_of_lt_of_eq t.isLt (show cfg0.N = 32 from N_0)
  rw [Dat.before_out_kept _ 2 rfl t (by omega) (Bool.eq_false_iff.mpr fun h => by have := (flush0_2 _).mp h; dsimp only at this; omega)
    (fun _ => rfl) (fun _ _ => rfl)]
  dsimp only [dats]

/-! ## The body obligation -/

def bodyPre (c : Dev nD) (t : Fin cfg0.N) : sProp 𝕄 :=
  iprop((dats m 0 c).Φ t.castSucc ∗ (dats m 0 c).owesAt () t.castSucc
    ∗ (∃ d, owns (c : Thread nD τ) (ms0_0 t) fullShare ((dats m 0 c).before 0 t d))
    ∗ (∃ d, owns (c : Thread nD τ) (ms0_1 t) fullShare ((dats m 0 c).before 1 t d))
    ∗ (∃ d, owns (c : Thread nD τ) (ms0_2 t) fullShare ((dats m 0 c).before 2 t d)))

def bodyPost (c : Dev nD) (t : Fin cfg0.N) : sProp 𝕄 :=
  iprop((dats m 0 c).Φ t.succ ∗ (dats m 0 c).owesAt () t.succ
    ∗ owns (c : Thread nD τ) (ms0_0 t) fullShare ((dats m 0 c).after 0 t)
    ∗ owns (c : Thread nD τ) (ms0_1 t) fullShare ((dats m 0 c).after 1 t)
    ∗ owns (c : Thread nD τ) (ms0_2 t) fullShare ((dats m 0 c).after 2 t))

set_option maxHeartbeats 1600000 in
/-- The body at any point: the inputs' memrefs hold their blocks; by the point's parity it is a first or a last
    chunk; at a last chunk the output's memref holds what the point before left; so that case's run applies. -/
theorem sound_body (c : Dev nD) (t : Fin cfg0.N) :
    bodyPre m c t ⊢ wp frame (wpE (defs₀ (F := F)) Variants.none c none) Set.univ (bodyAt0 t) (fun _ => bodyPost m c t) := by
  unfold bodyPre bodyPost bodyAt0
  simp only [before0_0, before0_1]
  rw [show (dats m 0 c).Φ t.succ = (dats m 0 c).Φ t.castSucc from rfl,
    show (dats m 0 c).owesAt () t.succ = (dats m 0 c).owesAt () t.castSucc from rfl,
    after0_0, after0_1, after0_2]
  by_cases h0 : t.val % 2 = 0
  · rw [outsAt0_even m c t h0]
    unfold outEven out0_A_2
    iintro ⟨HΦ, Ho, ⟨%d0, H0⟩, ⟨%d1, H1⟩, ⟨%d2, H2⟩⟩
    iapply ((kernelRun0_A c (grid0.coords t) _ _ _ _ _ _ (evenPoint t h0).1 (evenPoint t h0).2 (iblk m c 0 t) (iblk m c 1 t)).2 Set.univ _)
    isplitl [H0]; · iexact H0
    isplitl [H1]; · iexact H1
    isplitl [H2]; · iexists _; iexact H2
    iintro ⟨H0, H1, ⟨%e2, H2⟩⟩
    isplitl [HΦ]; · iexact HΦ
    isplitl [Ho]; · iexact Ho
    isplitl [H0]; · iexact H0
    isplitl [H1]; · iexact H1
    unfold owns; iexists _; isplitr
    swap; · iexact H2
    ipureintro; exact View.read_writes_of_cover _ _ _ _ _ (cover0_A_2 c _ _ _ _ _ _ _ _ _ _ _)
  · rw [outsAt0_odd m c t h0]
    simp only [before0_2_odd m c t h0]
    unfold outOdd out0_B_2
    iintro ⟨HΦ, Ho, ⟨%d0, H0⟩, ⟨%d1, H1⟩, ⟨%d2, H2⟩⟩
    iapply ((kernelRun0_B c (grid0.coords t) _ _ _ _ _ _ (oddPoint t h0).1 (oddPoint t h0).2 (iblk m c 0 t) (iblk m c 1 t) _).2 Set.univ _)
    isplitl [H0]; · iexact H0
    isplitl [H1]; · iexact H1
    isplitl [H2]; · iexact H2
    iintro ⟨H0, H1, ⟨%e2, H2⟩⟩
    isplitl [HΦ]; · iexact HΦ
    isplitl [Ho]; · iexact Ho
    isplitl [H0]; · iexact H0
    isplitl [H1]; · iexact H1
    unfold owns; iexists _; isplitr
    swap; · iexact H2
    ipureintro; exact View.read_writes_of_cover _ _ _ _ _ (cover0_B_2 c _ _ _ _ _ _ _ _ _ _ _ _)

theorem body_obligation (c : Dev nD) : BodyObligation (dats (F := F) m 0 c) (defs₀ (F := F)) Variants.none () Set.univ := fun t => by
  rw [bigSep_W0, bigSep_W0]
  exact sound_body m c t

/-! ## The run and the frame -/

set_option backward.isDefEq.respectTransparency.types false in
/-- Every weakly fair execution of @main terminates, and every final state has each array of the pipeline at what
    the proof data give and every other unscoped buffer as the lines after the region leave it. -/
theorem run_main : θ_run defs (onTc (τ := τ) (main (F := F))) (s₀ m ρ) (Pipeline.FramePost cfgs (dats m) 0 (Pipeline.afterTail₀ cfgs (dats m) 0 (V0 m) tailOps)) :=
  Pipeline.θ_run_frame_around cfgs (dats m) (0 : Fin 1) launch0 defs₀ Variants.none m ρ main
    (hbody := fun c => (body_obligation m c).loose) (hshare := fun c => (dats m 0 c).share_full fun _ => rfl)
    (howed := fun _ _ => rfl) (V₀ := V0 m) (opss := tailOps) (hsub := sfx_sub) (hfresh := sfx_fresh) (hkeep := sfx_keeps)
    (hmain := hmain m Variants.none) (hA := A_eq m) (hΦ := fun _ _ => rfl)

/-- The frame: the program runs to the end without a fault and its three argument arrays end as launched. -/
theorem frame : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)) :=
  frame_of m ρ (dats m) (run_main m ρ)

end Cert.Kernel.Frm

end
-- ==== Proof.IdealAround.lean ====
/-
  The program around its one pipelined region: two reshapes of the feature arrays come before it, sixty-five
  host operations (the segment means, the normalisation, the final mean) after it.  Here: what the device
  buffers hold when the region is entered, that the later lines neither allocate nor write an array the
  region stages, that the three argument arrays are never written, each window's block of its array at a
  grid point, and the two conditions the kernel body branches on (first channel chunk / last channel chunk)
  in closed form over the 32 grid points.
-/
import proofs.«144198_j39676907888504_2_alg».proof.Proof.Gen.KernelIdeal.Launch
import proofs.«144198_j39676907888504_2_alg».proof.Proof.Gen.KernelIdeal.Skeleton
import proofs.«144198_j39676907888504_2_alg».proof.Proof.Gen.KernelIdeal.Points
import Idealize.ShloMosaic.Lib.Pipeline.FrameBody
import Idealize.ShloMosaic.Lib.Pipeline.FrameSuffix
import Idealize.ShloMosaic.Lib.Ring
import Idealize.ShloMosaic.Lib.Tactic

set_option maxRecDepth 16384

noncomputable section

namespace Cert.KernelIdeal.Frm

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## The lines around the region -/

/-- Core `c`'s buffer contents when the region is entered: the launch contents after the two reshapes. -/
abbrev V0 (c : Dev nD) : Valuation τ sig (Elt F) := StableHlo.after (List.flatten [hostOps0]) (fun b => m (c, b))
/-- The same read at a TensorCore reference. -/
abbrev V (c : Dev nD) (b : Ref sig .tc) : Buf (Elt F) ((c : Thread nD τ).loc b) := V0 m c (Proc.devRef .tc b)

/-- The lines after the region, stretch by stretch (a called function's lines are a stretch of their own). -/
abbrev tailOps : List (List (HloOp τ sig (Elt F))) := [hostOps1, hostOps1_1, hostOps1_2, hostOps1_3, hostOps1_4]

theorem hostOps0_fresh : (hostOps0 : List (HloOp τ sig (Elt F))).Forall fun op => op.fresh = ∅ := by
  simp only [List.Forall]; repeat' constructor
theorem hostOps1_fresh : (hostOps1 : List (HloOp τ sig (Elt F))).Forall fun op => op.fresh = ∅ := by
  simp only [List.Forall]; repeat' constructor
theorem hostOps1_1_fresh : (hostOps1_1 : List (HloOp τ sig (Elt F))).Forall fun op => op.fresh = ∅ := by
  simp only [List.Forall]; repeat' constructor
theorem hostOps1_2_fresh : (hostOps1_2 : List (HloOp τ sig (Elt F))).Forall fun op => op.fresh = ∅ := by
  simp only [List.Forall]; repeat' constructor
theorem hostOps1_3_fresh : (hostOps1_3 : List (HloOp τ sig (Elt F))).Forall fun op => op.fresh = ∅ := by
  simp only [List.Forall]; repeat' constructor
theorem hostOps1_4_fresh : (hostOps1_4 : List (HloOp τ sig (Elt F))).Forall fun op => op.fresh = ∅ := by
  simp only [List.Forall]; repeat' constructor

/-- @main is the two reshapes, the region, and then the later lines as the region's continuation. -/
theorem hmain (𝒱₀ : Variants) : Pipeline.HMainK (Ix := Unit) (Name := ℕ) (U := UR sig nD τ) (Lvl := ℕ) cfgs 0 defs₀ 𝒱₀ m (main (F := F)) (V m)
      (fun _ => Pipeline.chain [StableHlo.seq hostOps1, StableHlo.seq hostOps1_1, StableHlo.seq hostOps1_2, StableHlo.seq hostOps1_3, StableHlo.seq hostOps1_4]) :=
  Pipeline.hmain_around cfgs 0 defs₀ 𝒱₀ m main [hostOps0] tailOps (by simp only [List.Forall]; exact hostOps0_sub)
    (by simp only [List.Forall]; exact hostOps0_fresh) main_chain

/-- The later lines touch unscoped TensorCore buffers only: arrays of the pipeline or buffers that bypass it. -/
theorem sfx_sub : ∀ ops ∈ (tailOps : List (List (HloOp τ sig (Elt F)))), ∀ op ∈ ops,
    op.bufs ⊆ Pipeline.tailRefs sig Pipeline.Prefetch.none spec0 := by
  rw [Pipeline.tailRefs_none spec0 launch0.win.arr_unscoped]
  intro ops hops op hop
  simp only [tailOps, List.mem_cons, List.mem_nil_iff, or_false] at hops
  rcases hops with rfl | rfl | rfl | rfl | rfl
  · exact Pipeline.sub_ucRefs op ((List.forall_iff_forall_mem.mp hostOps1_sub) op hop)
  · exact Pipeline.sub_ucRefs op ((List.forall_iff_forall_mem.mp hostOps1_1_sub) op hop)
  · exact Pipeline.sub_ucRefs op ((List.forall_iff_forall_mem.mp hostOps1_2_sub) op hop)
  · exact Pipeline.sub_ucRefs op ((List.forall_iff_forall_mem.mp hostOps1_3_sub) op hop)
  · exact Pipeline.sub_ucRefs op ((List.forall_iff_forall_mem.mp hostOps1_4_sub) op hop)

/-- They allocate nothing. -/
theorem sfx_fresh : ∀ ops ∈ (tailOps : List (List (HloOp τ sig (Elt F)))), ∀ op ∈ ops, op.fresh = ∅ := by
  intro ops hops op hop
  simp only [tailOps, List.mem_cons, List.mem_nil_iff, or_false] at hops
  rcases hops with rfl | rfl | rfl | rfl | rfl
  · exact (List.forall_iff_forall_mem.mp hostOps1_fresh) op hop
  · exact (List.forall_iff_forall_mem.mp hostOps1_1_fresh) op hop
  · exact (List.forall_iff_forall_mem.mp hostOps1_2_fresh) op hop
  · exact (List.forall_iff_forall_mem.mp hostOps1_3_fresh) op hop
  · exact (List.forall_iff_forall_mem.mp hostOps1_4_fresh) op hop

theorem hostOps1_keeps : (hostOps1 : List (HloOp τ sig (Elt F))).Forall fun op => ∀ w, Proc.devRef .tc (Pipeline.arrRef spec0 w) ∉ op.writes := by
  simp only [hostOps1, List.Forall, StableHlo.nullary_writes, StableHlo.unary_writes, StableHlo.binary_writes, StableHlo.ternary_writes, StableHlo.quaternary_writes, StableHlo.reshape_writes, StableHlo.binaryIndexed_writes, Finset.mem_singleton]
  repeat' apply And.intro
  all_goals intro w; fin_cases w <;> exact StableHlo.devRef_ne_of_ne (by decide)
theorem hostOps1_1_keeps : (hostOps1_1 : List (HloOp τ sig (Elt F))).Forall fun op => ∀ w, Proc.devRef .tc (Pipeline.arrRef spec0 w) ∉ op.writes := by
  simp only [hostOps1_1, List.Forall, StableHlo.nullary_writes, StableHlo.unary_writes, StableHlo.binary_writes, StableHlo.ternary_writes, StableHlo.quaternary_writes, StableHlo.reshape_writes, StableHlo.binaryIndexed_writes, Finset.mem_singleton]
  repeat' apply And.intro
  all_goals intro w; fin_cases w <;> exact StableHlo.devRef_ne_of_ne (by decide)
theorem hostOps1_2_keeps : (hostOps1_2 : List (HloOp τ sig (Elt F))).Forall fun op => ∀ w, Proc.devRef .tc (Pipeline.arrRef spec0 w) ∉ op.writes := by
  simp only [hostOps1_2, List.Forall, StableHlo.nullary_writes, StableHlo.unary_writes, StableHlo.binary_writes, StableHlo.ternary_writes, StableHlo.quaternary_writes, StableHlo.reshape_writes, StableHlo.binaryIndexed_writes, Finset.mem_singleton]
  repeat' apply And.intro
  all_goals intro w; fin_cases w <;> exact StableHlo.devRef_ne_of_ne (by decide)
theorem hostOps1_3_keeps : (hostOps1_3 : List (HloOp τ sig (Elt F))).Forall fun op => ∀ w, Proc.devRef .tc (Pipeline.arrRef spec0 w) ∉ op.writes := by
  simp only [hostOps1_3, List.Forall, StableHlo.nullary_writes, StableHlo.unary_writes, StableHlo.binary_writes, StableHlo.ternary_writes, StableHlo.quaternary_writes, StableHlo.reshape_writes, StableHlo.binaryIndexed_writes, Finset.mem_singleton]
  repeat' apply And.intro
  all_goals intro w; fin_cases w <;> exact StableHlo.devRef_ne_of_ne (by decide)
theorem hostOps1_4_keeps : (hostOps1_4 : List (HloOp τ sig (Elt F))).Forall fun op => ∀ w, Proc.devRef .tc (Pipeline.arrRef spec0 w) ∉ op.writes := by
  simp only [hostOps1_4, List.Forall, StableHlo.nullary_writes, StableHlo.unary_writes, StableHlo.binary_writes, StableHlo.ternary_writes, StableHlo.quaternary_writes, StableHlo.reshape_writes, StableHlo.binaryIndexed_writes, Finset.mem_singleton]
  repeat' apply And.intro
  all_goals intro w; fin_cases w <;> exact StableHlo.devRef_ne_of_ne (by decide)

/-- And each writes only its own result buffer, which is none of the three arrays the region stages. -/
theorem sfx_keeps : ∀ ops ∈ (tailOps : List (List (HloOp τ sig (Elt F)))), ∀ op ∈ ops,
    ∀ w, Proc.devRef .tc (Pipeline.arrRef spec0 w) ∉ op.writes := by
  intro ops hops op hop
  simp only [tailOps, List.mem_cons, List.mem_nil_iff, or_false] at hops
  rcases hops with rfl | rfl | rfl | rfl | rfl
  · exact (List.forall_iff_forall_mem.mp hostOps1_keeps) op hop
  · exact (List.forall_iff_forall_mem.mp hostOps1_1_keeps) op hop
  · exact (List.forall_iff_forall_mem.mp hostOps1_2_keeps) op hop
  · exact (List.forall_iff_forall_mem.mp hostOps1_3_keeps) op hop
  · exact (List.forall_iff_forall_mem.mp hostOps1_4_keeps) op hop

/-- No line before the region writes argument 0: the region finds it as launched. -/
theorem V_main_arg0 (c : Dev nD) : V m c main_arg0 = m ((c : Thread nD τ).loc main_arg0) :=
  StableHlo.after_of_forall_not_mem (b := Proc.devRef .tc main_arg0) _ _ (List.forall_iff_forall_mem.mp (by
    simp only [hostOps0, List.flatten_cons, List.flatten_nil, List.append_nil, List.cons_append, List.nil_append, List.Forall, StableHlo.nullary_writes, StableHlo.unary_writes, StableHlo.binary_writes, StableHlo.ternary_writes, StableHlo.quaternary_writes, StableHlo.reshape_writes, StableHlo.binaryIndexed_writes, Finset.mem_singleton]
    repeat' apply And.intro
    all_goals exact StableHlo.devRef_ne_of_ne (by decide)))

/-- No line after the region writes argument 0 either, and it is no array of the pipeline: it ends as launched. -/
theorem W_main_arg0 (dats : (p : Fin _) → (c : Dev nD) → Dat τ (Elt F) Unit ℕ (UR sig nD τ) ℕ (cfgs p) c) (c : Dev nD) :
    Pipeline.afterTail₀ cfgs dats 0 (V0 m) tailOps c main_arg0 = m ((c : Thread nD τ).loc main_arg0) := by
  unfold Pipeline.afterTail₀
  rw [StableHlo.after_of_forall_not_mem (b := Proc.devRef .tc main_arg0) _ _ (List.forall_iff_forall_mem.mp (by
      simp only [tailOps, hostOps1, hostOps1_1, hostOps1_2, hostOps1_3, hostOps1_4, List.flatten_cons, List.flatten_nil, List.append_nil, List.cons_append, List.nil_append, List.Forall, StableHlo.nullary_writes, StableHlo.unary_writes, StableHlo.binary_writes, StableHlo.ternary_writes, StableHlo.quaternary_writes, StableHlo.reshape_writes, StableHlo.binaryIndexed_writes, Finset.mem_singleton]
      repeat' apply And.intro
      all_goals exact StableHlo.devRef_ne_of_ne (by decide))),
    Pipeline.withArrays_of_ne _ c (V0 m c) _ main_arg0 (by exact (by decide : ∀ w, Pipeline.arrRef spec0 w ≠ main_arg0))]
  exact V_main_arg0 m c

/-- No line before the region writes argument 1: the region finds it as launched. -/
theorem V_main_arg1 (c : Dev nD) : V m c main_arg1 = m ((c : Thread nD τ).loc main_arg1) :=
  StableHlo.after_of_forall_not_mem (b := Proc.devRef .tc main_arg1) _ _ (List.forall_iff_forall_mem.mp (by
    simp only [hostOps0, List.flatten_cons, List.flatten_nil, List.append_nil, List.cons_append, List.nil_append, List.Forall, StableHlo.nullary_writes, StableHlo.unary_writes, StableHlo.binary_writes, StableHlo.ternary_writes, StableHlo.quaternary_writes, StableHlo.reshape_writes, StableHlo.binaryIndexed_writes, Finset.mem_singleton]
    repeat' apply And.intro
    all_goals exact StableHlo.devRef_ne_of_ne (by decide)))

/-- No line after the region writes argument 1 either, and it is no array of the pipeline: it ends as launched. -/
theorem W_main_arg1 (dats : (p : Fin _) → (c : Dev nD) → Dat τ (Elt F) Unit ℕ (UR sig nD τ) ℕ (cfgs p) c) (c : Dev nD) :
    Pipeline.afterTail₀ cfgs dats 0 (V0 m) tailOps c main_arg1 = m ((c : Thread nD τ).loc main_arg1) := by
  unfold Pipeline.afterTail₀
  rw [StableHlo.after_of_forall_not_mem (b := Proc.devRef .tc main_arg1) _ _ (List.forall_iff_forall_mem.mp (by
      simp only [tailOps, hostOps1, hostOps1_1, hostOps1_2, hostOps1_3, hostOps1_4, List.flatten_cons, List.flatten_nil, List.append_nil, List.cons_append, List.nil_append, List.Forall, StableHlo.nullary_writes, StableHlo.unary_writes, StableHlo.binary_writes, StableHlo.ternary_writes, StableHlo.quaternary_writes, StableHlo.reshape_writes, StableHlo.binaryIndexed_writes, Finset.mem_singleton]
      repeat' apply And.intro
      all_goals exact StableHlo.devRef_ne_of_ne (by decide))),
    Pipeline.withArrays_of_ne _ c (V0 m c) _ main_arg1 (by exact (by decide : ∀ w, Pipeline.arrRef spec0 w ≠ main_arg1))]
  exact V_main_arg1 m c

/-- No line before the region writes argument 2: the region finds it as launched. -/
theorem V_main_arg2 (c : Dev nD) : V m c main_arg2 = m ((c : Thread nD τ).loc main_arg2) :=
  StableHlo.after_of_forall_not_mem (b := Proc.devRef .tc main_arg2) _ _ (List.forall_iff_forall_mem.mp (by
    simp only [hostOps0, List.flatten_cons, List.flatten_nil, List.append_nil, List.cons_append, List.nil_append, List.Forall, StableHlo.nullary_writes, StableHlo.unary_writes, StableHlo.binary_writes, StableHlo.ternary_writes, StableHlo.quaternary_writes, StableHlo.reshape_writes, StableHlo.binaryIndexed_writes, Finset.mem_singleton]
    repeat' apply And.intro
    all_goals exact StableHlo.devRef_ne_of_ne (by decide)))

/-- No line after the region writes argument 2 either, and it is no array of the pipeline: it ends as launched. -/
theorem W_main_arg2 (dats : (p : Fin _) → (c : Dev nD) → Dat τ (Elt F) Unit ℕ (UR sig nD τ) ℕ (cfgs p) c) (c : Dev nD) :
    Pipeline.afterTail₀ cfgs dats 0 (V0 m) tailOps c main_arg2 = m ((c : Thread nD τ).loc main_arg2) := by
  unfold Pipeline.afterTail₀
  rw [StableHlo.after_of_forall_not_mem (b := Proc.devRef .tc main_arg2) _ _ (List.forall_iff_forall_mem.mp (by
      simp only [tailOps, hostOps1, hostOps1_1, hostOps1_2, hostOps1_3, hostOps1_4, List.flatten_cons, List.flatten_nil, List.append_nil, List.cons_append, List.nil_append, List.Forall, StableHlo.nullary_writes, StableHlo.unary_writes, StableHlo.binary_writes, StableHlo.ternary_writes, StableHlo.quaternary_writes, StableHlo.reshape_writes, StableHlo.binaryIndexed_writes, Finset.mem_singleton]
      repeat' apply And.intro
      all_goals exact StableHlo.devRef_ne_of_ne (by decide))),
    Pipeline.withArrays_of_ne _ c (V0 m c) _ main_arg2 (by exact (by decide : ∀ w, Pipeline.arrRef spec0 w ≠ main_arg2))]
  exact V_main_arg2 m c

/-! ## The windows' blocks -/

/-- Window `w`'s block at grid point `t`, read off its array as the region finds it. -/
def iblk (c : Dev nD) (w : Fin cfg0.W) (t : Fin cfg0.N) : ((cfg0.win w).xblock (cfg0.grid.coords t)).Idx → Elt F (cfg0.win w).elt :=
  ((cfg0.win w).blk t).view.read (Elt F) (V m c (Pipeline.arrRef spec0 w))

/-- Input window 0's current staging buffer holds its block of the array at every point, for any proof data whose
    array is the region-entry contents and whose body leaves the block in place. -/
theorem before0_0_of {c : Dev nD} (dat : Dat τ (Elt F) Unit ℕ (UR sig nD τ) ℕ cfg0 c) (hA : dat.A 0 = V m c (Pipeline.arrRef spec0 0))
    (hafter : ∀ t, dat.after 0 t = iblk m c 0 t) (t : Fin cfg0.N) (d) : dat.before 0 t d = iblk m c 0 t :=
  (dat.before_in_eq_fetched 0 rfl (fun _ => rfl) (fun _ _ _ => rfl) (fun t => by rw [hafter]; unfold Dat.blockOf iblk; rw [hA]; try rfl) t d).trans
    (by unfold Dat.fetched Dat.blockOf iblk; rw [hA]; try rfl)

/-- Input window 1's current staging buffer holds its block of the array at every point, for any proof data whose
    array is the region-entry contents and whose body leaves the block in place. -/
theorem before0_1_of {c : Dev nD} (dat : Dat τ (Elt F) Unit ℕ (UR sig nD τ) ℕ cfg0 c) (hA : dat.A 1 = V m c (Pipeline.arrRef spec0 1))
    (hafter : ∀ t, dat.after 1 t = iblk m c 1 t) (t : Fin cfg0.N) (d) : dat.before 1 t d = iblk m c 1 t :=
  (dat.before_in_eq_fetched 1 rfl (fun _ => rfl) (fun _ _ _ => rfl) (fun t => by rw [hafter]; unfold Dat.blockOf iblk; rw [hA]; try rfl) t d).trans
    (by unfold Dat.fetched Dat.blockOf iblk; rw [hA]; try rfl)

/-! ## The frame claim from a frame run -/

/-- A run ending with every bypassing buffer as the later lines leave it leaves the three argument arrays as
    launched: none of them is staged by the region (the region stages their reshapes) and no line writes one. -/
theorem frame_of (dats : (p : Fin 1) → (c : Dev nD) → Dat τ (Elt F) Unit ℕ (UR sig nD τ) ℕ (cfgs p) c)
    (h : θ_run defs (onTc (τ := τ) (main (F := F))) (s₀ m ρ) (Pipeline.FramePost cfgs dats 0 (Pipeline.afterTail₀ cfgs dats 0 (V0 m) tailOps))) :
    θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)) :=
  (θ_run defs _ _).mono (fun _ h c =>
    ⟨((h c).2 main_arg0 (Pipeline.mem_restRefs_of main_arg0 (by decide) (by decide))).trans (W_main_arg0 m dats c),
     ((h c).2 main_arg1 (Pipeline.mem_restRefs_of main_arg1 (by decide) (by decide))).trans (W_main_arg1 m dats c),
     ((h c).2 main_arg2 (Pipeline.mem_restRefs_of main_arg2 (by decide) (by decide))).trans (W_main_arg2 m dats c)⟩) h

/-! ## The body's two branches -/

/-- The body zeroes the accumulator when the point is a first channel chunk (grid coordinate 1 is 0). -/
abbrev cond0_0 (i : grid0.Coords) : Prop := (Scalar.cmpi .ne (Scalar.extui (Scalar.cmpi .eq (BitVec.ofNat 32 (i 1).val) 0#32)) 0#32) = 1#1
/-- Those are the even points. -/
theorem hcond0_0 : ∀ t : Fin cfg0.N, cond0_0 (grid0.coords t) ↔ t.val % 2 = 0 :=
  (by decide +kernel : ∀ t : Fin grid0.N, cond0_0 (grid0.coords t) ↔ t.val % 2 = 0)

/-- The body scales the accumulator when the point is a last channel chunk (grid coordinate 1 is 1). -/
abbrev cond0_1 (i : grid0.Coords) : Prop := (Scalar.cmpi .ne (Scalar.extui (Scalar.cmpi .eq (BitVec.ofNat 32 (i 1).val) 1#32)) 0#32) = 1#1
/-- Those are the odd points. -/
theorem hcond0_1 : ∀ t : Fin cfg0.N, cond0_1 (grid0.coords t) ↔ t.val % 2 = 1 :=
  (by decide +kernel : ∀ t : Fin grid0.N, cond0_1 (grid0.coords t) ↔ t.val % 2 = 1)

/-- The output window is never idle: the body stores into it at every point. -/
theorem liveAt0_2 : ∀ t : Fin cfg0.N, cfg0.idle 2 (grid0.coords t) = false := by decide +kernel
theorem liveAt0_0 : ∀ t : Fin cfg0.N, cfg0.idle 0 (grid0.coords t) = false := by decide +kernel
theorem liveAt0_1 : ∀ t : Fin cfg0.N, cfg0.idle 1 (grid0.coords t) = false := by decide +kernel

/-! ## The staging memrefs at a point -/

/-- One staging buffer of the output window, through which its contents are stated. -/
abbrev VO0_2 : View sig .tc .vmem S1x1x4096 .f32 := (Memref.whole cc0_stg2_0 : Memref sig .tc .vmem S1x1x4096 .f32).view
/-- Each window's current staging memref at point `t`, as the pipeline passes it to the body, and its wholeness. -/
abbrev ms0_0 (t : Fin cfg0.N) : Memref sig .tc .vmem S1x256x4096 .f32 := win0_0.stage (cfg0.slots t 0)
abbrev hs0_0 (t : Fin cfg0.N) : (ms0_0 t).IsWhole := hstage0_0 ((cfg0.slots t 0).cast nbuf0_0)
abbrev ms0_1 (t : Fin cfg0.N) : Memref sig .tc .vmem S1x256x4096 .f32 := win0_1.stage (cfg0.slots t 1)
abbrev hs0_1 (t : Fin cfg0.N) : (ms0_1 t).IsWhole := hstage0_1 ((cfg0.slots t 1).cast nbuf0_1)
abbrev ms0_2 (t : Fin cfg0.N) : Memref sig .tc .vmem S1x1x4096 .f32 := win0_2.stage (cfg0.slots t 2)
abbrev hs0_2 (t : Fin cfg0.N) : (ms0_2 t).IsWhole := hstage0_2 ((cfg0.slots t 2).cast nbuf0_2)

end Cert.KernelIdeal.Frm

end
-- ==== Proof.IdealFirstChunk.lean ====
/-
  The kernel body at a grid point that is a FIRST channel chunk (grid coordinate 1 is 0): the accumulator block is
  zeroed, the chunk's 256 squared differences are added into it, and the closing scale is skipped.  Run on any
  whole staging memrefs, the two inputs at given contents, the output at anything; what the stores leave in the
  output's buffer is found by the run itself, as a list of pieces.
-/
import proofs.«144198_j39676907888504_2_alg».proof.Proof.IdealAround

set_option maxRecDepth 16384

noncomputable section

namespace Cert.KernelIdeal.Frm

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

set_option maxHeartbeats 4000000 in
/-- The pieces the body's stores leave in the output's staging memref at such a point, with the proof that the
    body runs from the three memrefs owned whole to the continuation holding the inputs as they were and the
    output's buffer with those pieces written. -/
noncomputable def kernelRun0_A (c : Dev nD) (i : grid0.Coords) (arg2 : Memref sig .tc .vmem S1x256x4096 .f32) (harg2 : arg2.IsWhole) (arg3 : Memref sig .tc .vmem S1x256x4096 .f32) (harg3 : arg3.IsWhole) (arg4 : Memref sig .tc .vmem S1x1x4096 .f32) (harg4 : arg4.IsWhole) (hc0 : cond0_0 i) (hc1 : ¬cond0_1 i)
    (x0 : Vec F S1x256x4096 .f32) (x1 : Vec F S1x256x4096 .f32) :
    { L2 : List (View.Piece (Elt F) S1x1x4096 .f32) //
      ∀ (E : Set ℕ) (K : PUnit → sProp 𝕄),
        iprop(owns (c : Thread nD τ) arg2 fullShare x0 ∗ owns (c : Thread nD τ) arg3 fullShare x1 ∗ (∃ d, owns (c : Thread nD τ) arg4 fullShare d)
            ∗ (iprop(owns (c : Thread nD τ) arg2 fullShare x0 ∗ owns (c : Thread nD τ) arg3 fullShare x1 ∗ (∃ f, arg4.view.loc (c : Thread nD τ) ↦[arg4.view.set]{fullShare} arg4.view.writes (Elt F) f L2)) -∗ K ⟨⟩))
          ⊢ wp frame (wpE (defs₀ (F := F)) Variants.none c none) E (cc0__loss_metric_kernel i arg2 harg2 arg3 harg3 arg4 harg4) K } := by
  refine ⟨?_, fun E K => ?run⟩
  case run =>
    simp only [cc0__loss_metric_kernel_eq_skeleton]; unfold cc0__loss_metric_kernel_skel
    unfold owns
    iintro ⟨⟨%f0, %hf0, H0⟩, ⟨%f1, %hf1, H1⟩, ⟨%d2, %f2, -, H2⟩, Hk⟩
    obtain rfl := harg2.eq_unread hf0; obtain rfl := harg3.eq_unread hf1
    sl_exec (disch := first | exact hc0 | exact hc1)
    sl_step
    iapply Hk
    isplitl [H0]
    · iexists _; isplitr; · ipureintro; exact harg2.read_unread _
      iexact H0
    isplitl [H1]
    · iexists _; isplitr; · ipureintro; exact harg3.read_unread _
      iexact H1
    iexists _; iexact H2

end Cert.KernelIdeal.Frm

end
-- ==== Proof.IdealLastChunk.lean ====
/-
  The kernel body at a grid point that is a LAST channel chunk (grid coordinate 1 is 1): nothing is zeroed, the
  chunk's 256 squared differences are added onto what the point before left in the accumulator block, and the sum
  is scaled by 1/512.  Run on any whole staging memrefs, the two inputs at given contents, the output at the
  contents the point before left; what the stores leave in the output's buffer is found by the run itself.
-/
import proofs.«144198_j39676907888504_2_alg».proof.Proof.IdealFirstChunk

set_option maxRecDepth 16384

noncomputable section

namespace Cert.KernelIdeal.Frm

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

set_option maxHeartbeats 4000000 in
/-- The pieces the body's stores leave in the output's staging memref at such a point, with the proof that the
    body runs from the three memrefs owned whole to the continuation holding the inputs as they were and the
    output's buffer with those pieces written. -/
noncomputable def kernelRun0_B (c : Dev nD) (i : grid0.Coords) (arg2 : Memref sig .tc .vmem S1x256x4096 .f32) (harg2 : arg2.IsWhole) (arg3 : Memref sig .tc .vmem S1x256x4096 .f32) (harg3 : arg3.IsWhole) (arg4 : Memref sig .tc .vmem S1x1x4096 .f32) (harg4 : arg4.IsWhole) (hc0 : ¬cond0_0 i) (hc1 : cond0_1 i)
    (x0 : Vec F S1x256x4096 .f32) (x1 : Vec F S1x256x4096 .f32) (xo2 : Vec F S1x1x4096 .f32) :
    { L2 : List (View.Piece (Elt F) S1x1x4096 .f32) //
      ∀ (E : Set ℕ) (K : PUnit → sProp 𝕄),
        iprop(owns (c : Thread nD τ) arg2 fullShare x0 ∗ owns (c : Thread nD τ) arg3 fullShare x1 ∗ owns (c : Thread nD τ) arg4 fullShare xo2
            ∗ (iprop(owns (c : Thread nD τ) arg2 fullShare x0 ∗ owns (c : Thread nD τ) arg3 fullShare x1 ∗ (∃ f, arg4.view.loc (c : Thread nD τ) ↦[arg4.view.set]{fullShare} arg4.view.writes (Elt F) f L2)) -∗ K ⟨⟩))
          ⊢ wp frame (wpE (defs₀ (F := F)) Variants.none c none) E (cc0__loss_metric_kernel i arg2 harg2 arg3 harg3 arg4 harg4) K } := by
  refine ⟨?_, fun E K => ?run⟩
  case run =>
    simp only [cc0__loss_metric_kernel_eq_skeleton]; unfold cc0__loss_metric_kernel_skel
    unfold owns
    iintro ⟨⟨%f0, %hf0, H0⟩, ⟨%f1, %hf1, H1⟩, ⟨%f2, %hf2, H2⟩, Hk⟩
    obtain rfl := harg2.eq_unread hf0; obtain rfl := harg3.eq_unread hf1; obtain rfl := harg4.eq_unread hf2
    sl_exec (disch := first | exact hc0 | exact hc1)
    sl_step
    iapply Hk
    isplitl [H0]
    · iexists _; isplitr; · ipureintro; exact harg2.read_unread _
      iexact H0
    isplitl [H1]
    · iexists _; isplitr; · ipureintro; exact harg3.read_unread _
      iexact H1
    iexists _; iexact H2

end Cert.KernelIdeal.Frm

end
-- ==== Proof.IdealFrame.lean ====
/-
  The accumulation over the grid and the run of the whole program.  Grid point t = 2·b + k handles batch
  row b and channel chunk k.  At an even point the body leaves in the output's staging buffer the chunk's sum of
  squared differences over zero; at the odd point after it, that plus the second chunk's sum, scaled; the buffer
  is written back at the odd points only, so the odd point finds what the even point left.  From this: the
  proof data of the pipeline, the body's obligation at every point, the run of @main with every array of the
  pipeline and every other buffer named, and the frame (the three argument arrays end as launched).
-/
import proofs.«144198_j39676907888504_2_alg».proof.Proof.IdealLastChunk

set_option maxRecDepth 16384

noncomputable section

namespace Cert.KernelIdeal.Frm

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## What a point leaves in the output's staging buffer -/

/-- At a first-chunk point the body's stores tile the output block, so they cover it. -/
theorem cover0_A_2 (c : Dev nD) (i : grid0.Coords) (arg2 : Memref sig .tc .vmem S1x256x4096 .f32) (harg2 : arg2.IsWhole) (arg3 : Memref sig .tc .vmem S1x256x4096 .f32) (harg3 : arg3.IsWhole) (arg4 : Memref sig .tc .vmem S1x1x4096 .f32) (harg4 : arg4.IsWhole) (hc0 : cond0_0 i) (hc1 : ¬cond0_1 i)
    (x0 : Vec F S1x256x4096 .f32) (x1 : Vec F S1x256x4096 .f32) (y : S1x1x4096.Idx) :
    ∃ pc ∈ (kernelRun0_A c i arg2 harg2 arg3 harg3 arg4 harg4 hc0 hc1 x0 x1).1, y ∈ pc.1.set :=
  View.cover_of_tiledL (kernelRun0_A c i arg2 harg2 arg3 harg3 arg4 harg4 hc0 hc1 x0 x1).1 S1x1x4096.size (by sl_kernel_rfl) y

/-- What a first-chunk point leaves in the output's staging buffer: its stores read back. -/
def out0_A_2 (c : Dev nD) (i : grid0.Coords) (arg2 : Memref sig .tc .vmem S1x256x4096 .f32) (harg2 : arg2.IsWhole) (arg3 : Memref sig .tc .vmem S1x256x4096 .f32) (harg3 : arg3.IsWhole) (arg4 : Memref sig .tc .vmem S1x1x4096 .f32) (harg4 : arg4.IsWhole) (hc0 : cond0_0 i) (hc1 : ¬cond0_1 i)
    (x0 : Vec F S1x256x4096 .f32) (x1 : Vec F S1x256x4096 .f32) : Vec F S1x1x4096 .f32 :=
  VO0_2.read (Elt F) (VO0_2.writes (Elt F) VO0_2.junk (kernelRun0_A c i arg2 harg2 arg3 harg3 arg4 harg4 hc0 hc1 x0 x1).1)

/-- At a last-chunk point too the stores cover the output block. -/
theorem cover0_B_2 (c : Dev nD) (i : grid0.Coords) (arg2 : Memref sig .tc .vmem S1x256x4096 .f32) (harg2 : arg2.IsWhole) (arg3 : Memref sig .tc .vmem S1x256x4096 .f32) (harg3 : arg3.IsWhole) (arg4 : Memref sig .tc .vmem S1x1x4096 .f32) (harg4 : arg4.IsWhole) (hc0 : ¬cond0_0 i) (hc1 : cond0_1 i)
    (x0 : Vec F S1x256x4096 .f32) (x1 : Vec F S1x256x4096 .f32) (xo2 : Vec F S1x1x4096 .f32) (y : S1x1x4096.Idx) :
    ∃ pc ∈ (kernelRun0_B c i arg2 harg2 arg3 harg3 arg4 harg4 hc0 hc1 x0 x1 xo2).1, y ∈ pc.1.set :=
  View.cover_of_tiledL (kernelRun0_B c i arg2 harg2 arg3 harg3 arg4 harg4 hc0 hc1 x0 x1 xo2).1 S1x1x4096.size (by sl_kernel_rfl) y

/-- What a last-chunk point leaves there, given what the point before left (`xo2`). -/
def out0_B_2 (c : Dev nD) (i : grid0.Coords) (arg2 : Memref sig .tc .vmem S1x256x4096 .f32) (harg2 : arg2.IsWhole) (arg3 : Memref sig .tc .vmem S1x256x4096 .f32) (harg3 : arg3.IsWhole) (arg4 : Memref sig .tc .vmem S1x1x4096 .f32) (harg4 : arg4.IsWhole) (hc0 : ¬cond0_0 i) (hc1 : cond0_1 i)
    (x0 : Vec F S1x256x4096 .f32) (x1 : Vec F S1x256x4096 .f32) (xo2 : Vec F S1x1x4096 .f32) : Vec F S1x1x4096 .f32 :=
  VO0_2.read (Elt F) (VO0_2.writes (Elt F) VO0_2.junk (kernelRun0_B c i arg2 harg2 arg3 harg3 arg4 harg4 hc0 hc1 x0 x1 xo2).1)

/-- An even point is a first chunk and no last chunk. -/
theorem evenPoint (t : Fin cfg0.N) (h : t.val % 2 = 0) : cond0_0 (grid0.coords t) ∧ ¬cond0_1 (grid0.coords t) :=
  ⟨(hcond0_0 t).mpr h, fun h1 => by have := (hcond0_1 t).mp h1; omega⟩
/-- An odd point is a last chunk and no first chunk. -/
theorem oddPoint (t : Fin cfg0.N) (h : ¬t.val % 2 = 0) : ¬cond0_0 (grid0.coords t) ∧ cond0_1 (grid0.coords t) :=
  ⟨fun h0 => h ((hcond0_0 t).mp h0), (hcond0_1 t).mpr (by omega)⟩

/-- The output's staging buffer after an even point `t`, from the point's two input blocks. -/
def outEven (c : Dev nD) (t : Fin cfg0.N) (h : t.val % 2 = 0) : Vec F S1x1x4096 .f32 :=
  out0_A_2 c (grid0.coords t) (ms0_0 t) (hs0_0 t) (ms0_1 t) (hs0_1 t) (ms0_2 t) (hs0_2 t) (evenPoint t h).1 (evenPoint t h).2 (iblk m c 0 t) (iblk m c 1 t)
/-- The same after an odd point, from the point's input blocks and what the even point before it left. -/
def outOdd (c : Dev nD) (t : Fin cfg0.N) (h : ¬t.val % 2 = 0) (prev : Vec F S1x1x4096 .f32) : Vec F S1x1x4096 .f32 :=
  out0_B_2 c (grid0.coords t) (ms0_0 t) (hs0_0 t) (ms0_1 t) (hs0_1 t) (ms0_2 t) (hs0_2 t) (oddPoint t h).1 (oddPoint t h).2 (iblk m c 0 t) (iblk m c 1 t) prev

/-- The accumulation: what the output's staging buffer holds after the body at position `n`. -/
def outsAt0 (c : Dev nD) : (n : ℕ) → n < cfg0.N → Vec F S1x1x4096 .f32
  | 0, hn => outEven m c ⟨0, hn⟩ (Nat.zero_mod _)
  | n + 1, hn =>
    if h0 : (n + 1) % 2 = 0 then outEven m c ⟨n + 1, hn⟩ h0
    else outOdd m c ⟨n + 1, hn⟩ h0 (outsAt0 c n (Nat.lt_of_succ_lt hn))

theorem outsAt0_even (c : Dev nD) (t : Fin cfg0.N) (h0 : t.val % 2 = 0) :
    outsAt0 m c t.val t.isLt = outEven m c t h0 := by
  obtain ⟨n, hn⟩ := t
  cases n with
  | zero => exact rfl
  | succ n => exact (dif_pos h0).trans rfl

theorem outsAt0_odd (c : Dev nD) (t : Fin cfg0.N) (h0 : ¬t.val % 2 = 0) :
    outsAt0 m c t.val t.isLt = outOdd m c t h0 (outsAt0 m c (t.val - 1) (Nat.lt_of_le_of_lt (Nat.sub_le _ _) t.isLt)) := by
  obtain ⟨n, hn⟩ := t
  cases n with
  | zero => exact (by exfalso; (try dsimp only at h0); exact absurd (Nat.zero_mod _) h0)
  | succ n => exact (dif_neg h0).trans rfl

/-! ## The pipeline's proof data -/

/-- The arrays as the region finds them; after the body at a point each input's buffer at its block and the
    output's at the accumulation; the region invariant the scoped rest and the random-number register; nothing owed. -/
def dats (_ : Fin 1) (c : Dev nD) : Dat τ (Elt F) Unit ℕ (UR sig nD τ) ℕ cfg0 c where
  A w := V m c (Pipeline.arrRef spec0 w)
  after w t := match w with
    | ⟨0, _⟩ => iblk m c 0 t
    | ⟨1, _⟩ => iblk m c 1 t
    | ⟨2, _⟩ => (outsAt0 m c t.val t.isLt)
  Φ _ := Pipeline.ΦA spec0 c
  q _ := fullShare
  owed _ := 0

theorem A_eq (c : Dev nD) (w : Fin cfg0.W) : (dats m 0 c).A w = V m c (Pipeline.arrRef spec0 w) := by
  dsimp only [dats]

theorem after0_0 (c : Dev nD) (t : Fin cfg0.N) : (dats m 0 c).after 0 t = iblk m c 0 t := by dsimp only [dats]
theorem after0_1 (c : Dev nD) (t : Fin cfg0.N) : (dats m 0 c).after 1 t = iblk m c 1 t := by dsimp only [dats]
theorem after0_2 (c : Dev nD) (t : Fin cfg0.N) : (dats m 0 c).after 2 t = (outsAt0 m c t.val t.isLt) := by dsimp only [dats]

theorem before0_0 (c : Dev nD) (t : Fin cfg0.N) (d) : (dats m 0 c).before 0 t d = iblk m c 0 t :=
  before0_0_of m (dats m 0 c) (A_eq m c 0) (after0_0 m c) t d
theorem before0_1 (c : Dev nD) (t : Fin cfg0.N) (d) : (dats m 0 c).before 1 t d = iblk m c 1 t :=
  before0_1_of m (dats m 0 c) (A_eq m c 1) (after0_1 m c) t d
/-- At an odd point the output's current staging buffer holds what the body left at the even point before: the
    buffer is written back at odd points only. -/
theorem before0_2_odd (c : Dev nD) (t : Fin cfg0.N) (h0 : ¬t.val % 2 = 0) (d) :
    (dats m 0 c).before 2 t d = (outsAt0 m c (t.val - 1) (Nat.lt_of_le_of_lt (Nat.sub_le _ _) t.isLt)) := by
  have hN : t.val < 32 := lt_of_lt_of_eq t.isLt (show cfg0.N = 32 from N_0)
  rw [Dat.before_out_kept _ 2 rfl t (by omega) (Bool.eq_false_iff.mpr fun h => by have := (flush0_2 _).mp h; dsimp only at this; omega)
    (fun _ => rfl) (fun _ _ => rfl)]
  dsimp only [dats]

/-! ## The body obligation -/

def bodyPre (c : Dev nD) (t : Fin cfg0.N) : sProp 𝕄 :=
  iprop((dats m 0 c).Φ t.castSucc ∗ (dats m 0 c).owesAt () t.castSucc
    ∗ (∃ d, owns (c : Thread nD τ) (ms0_0 t) fullShare ((dats m 0 c).before 0 t d))
    ∗ (∃ d, owns (c : Thread nD τ) (ms0_1 t) fullShare ((dats m 0 c).before 1 t d))
    ∗ (∃ d, owns (c : Thread nD τ) (ms0_2 t) fullShare ((dats m 0 c).before 2 t d)))

def bodyPost (c : Dev nD) (t : Fin cfg0.N) : sProp 𝕄 :=
  iprop((dats m 0 c).Φ t.succ ∗ (dats m 0 c).owesAt () t.succ
    ∗ owns (c : Thread nD τ) (ms0_0 t) fullShare ((dats m 0 c).after 0 t)
    ∗ owns (c : Thread nD τ) (ms0_1 t) fullShare ((dats m 0 c).after 1 t)
    ∗ owns (c : Thread nD τ) (ms0_2 t) fullShare ((dats m 0 c).after 2 t))

set_option maxHeartbeats 1600000 in
/-- The body at any point: the inputs' memrefs hold their blocks; by the point's parity it is a first or a last
    chunk; at a last chunk the output's memref holds what the point before left; so that case's run applies. -/
theorem sound_body (c : Dev nD) (t : Fin cfg0.N) :
    bodyPre m c t ⊢ wp frame (wpE (defs₀ (F := F)) Variants.none c none) Set.univ (bodyAt0 t) (fun _ => bodyPost m c t) := by
  unfold bodyPre bodyPost bodyAt0
  simp only [before0_0, before0_1]
  rw [show (dats m 0 c).Φ t.succ = (dats m 0 c).Φ t.castSucc from rfl,
    show (dats m 0 c).owesAt () t.succ = (dats m 0 c).owesAt () t.castSucc from rfl,
    after0_0, after0_1, after0_2]
  by_cases h0 : t.val % 2 = 0
  · rw [outsAt0_even m c t h0]
    unfold outEven out0_A_2
    iintro ⟨HΦ, Ho, ⟨%d0, H0⟩, ⟨%d1, H1⟩, ⟨%d2, H2⟩⟩
    iapply ((kernelRun0_A c (grid0.coords t) _ _ _ _ _ _ (evenPoint t h0).1 (evenPoint t h0).2 (iblk m c 0 t) (iblk m c 1 t)).2 Set.univ _)
    isplitl [H0]; · iexact H0
    isplitl [H1]; · iexact H1
    isplitl [H2]; · iexists _; iexact H2
    iintro ⟨H0, H1, ⟨%e2, H2⟩⟩
    isplitl [HΦ]; · iexact HΦ
    isplitl [Ho]; · iexact Ho
    isplitl [H0]; · iexact H0
    isplitl [H1]; · iexact H1
    unfold owns; iexists _; isplitr
    swap; · iexact H2
    ipureintro; exact View.read_writes_of_cover _ _ _ _ _ (cover0_A_2 c _ _ _ _ _ _ _ _ _ _ _)
  · rw [outsAt0_odd m c t h0]
    simp only [before0_2_odd m c t h0]
    unfold outOdd out0_B_2
    iintro ⟨HΦ, Ho, ⟨%d0, H0⟩, ⟨%d1, H1⟩, ⟨%d2, H2⟩⟩
    iapply ((kernelRun0_B c (grid0.coords t) _ _ _ _ _ _ (oddPoint t h0).1 (oddPoint t h0).2 (iblk m c 0 t) (iblk m c 1 t) _).2 Set.univ _)
    isplitl [H0]; · iexact H0
    isplitl [H1]; · iexact H1
    isplitl [H2]; · iexact H2
    iintro ⟨H0, H1, ⟨%e2, H2⟩⟩
    isplitl [HΦ]; · iexact HΦ
    isplitl [Ho]; · iexact Ho
    isplitl [H0]; · iexact H0
    isplitl [H1]; · iexact H1
    unfold owns; iexists _; isplitr
    swap; · iexact H2
    ipureintro; exact View.read_writes_of_cover _ _ _ _ _ (cover0_B_2 c _ _ _ _ _ _ _ _ _ _ _ _)

theorem body_obligation (c : Dev nD) : BodyObligation (dats (F := F) m 0 c) (defs₀ (F := F)) Variants.none () Set.univ := fun t => by
  rw [bigSep_W0, bigSep_W0]
  exact sound_body m c t

/-! ## The run and the frame -/

set_option backward.isDefEq.respectTransparency.types false in
/-- Every weakly fair execution of @main terminates, and every final state has each array of the pipeline at what
    the proof data give and every other unscoped buffer as the lines after the region leave it. -/
theorem run_main : θ_run defs (onTc (τ := τ) (main (F := F))) (s₀ m ρ) (Pipeline.FramePost cfgs (dats m) 0 (Pipeline.afterTail₀ cfgs (dats m) 0 (V0 m) tailOps)) :=
  Pipeline.θ_run_frame_around cfgs (dats m) (0 : Fin 1) launch0 defs₀ Variants.none m ρ main
    (hbody := fun c => (body_obligation m c).loose) (hshare := fun c => (dats m 0 c).share_full fun _ => rfl)
    (howed := fun _ _ => rfl) (V₀ := V0 m) (opss := tailOps) (hsub := sfx_sub) (hfresh := sfx_fresh) (hkeep := sfx_keeps)
    (hmain := hmain m Variants.none) (hA := A_eq m) (hΦ := fun _ _ => rfl)

/-- The frame: the program runs to the end without a fault and its three argument arrays end as launched. -/
theorem frame : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)) :=
  frame_of m ρ (dats m) (run_main m ρ)

end Cert.KernelIdeal.Frm

end
-- ==== Proof.IdealPointValue.lean ====
/-
  What a grid point leaves in the accumulator block, as a value.  Read back, the stores of a first-chunk point are
  the accumulation over the zero fill; those of a last-chunk point are the scale of the accumulation over what the
  point before left.  So after the odd point 2·b + 1 the block holds
      scale (accumulate x₁ y₁ (accumulate x₀ y₀ zeroFill))
  with (x₀, y₀), (x₁, y₁) the input blocks of the points 2·b and 2·b + 1.
-/
import proofs.«144198_j39676907888504_2_alg».proof.Proof.IdealFrame
import Idealize.ShloMosaic.Lib.Pipeline.Value

set_option maxRecDepth 16384

noncomputable section

namespace Cert.KernelIdeal.Frm

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

variable (m : (ℓ : Loc nD τ sig) → Buf (Elt F) ℓ)

theorem hz3 : (![0, 0, 0] : Fin 3 → Nat) = fun _ => 0 := funext fun a => by fin_cases a <;> rfl

/-- A first-chunk point leaves the accumulation of its two input blocks over the zero fill. -/
theorem firstChunk_value (c : Dev nD) (i : grid0.Coords) (a2 : Memref sig .tc .vmem S1x256x4096 .f32) (h2 : a2.IsWhole) (a3 : Memref sig .tc .vmem S1x256x4096 .f32) (h3 : a3.IsWhole) (a4 : Memref sig .tc .vmem S1x1x4096 .f32) (h4 : a4.IsWhole) (hc0 : cond0_0 i) (hc1 : ¬cond0_1 i)
    (x y : Vec F S1x256x4096 .f32) :
    out0_A_2 c i a2 h2 a3 h3 a4 h4 hc0 hc1 x y = k0_pay2 x y (k0_pay1 (F := F)) := by
  unfold out0_A_2
  rw [View.read_writes_eq_canon _ _ _ (cover0_A_2 c i a2 h2 a3 h3 a4 h4 hc0 hc1 x y)]
  unfold kernelRun0_A
  dsimp only
  sl_unfold_words
  rw [View.canon_cons_unit_zero (S := S1x1x4096) hz3, View.readCov_unit_zero (S := S1x1x4096) _ hz3]
  simp only [View.readAt_eq_ld, h2.read_unread, h3.read_unread, View.ld_unit_zero (S := S1x256x4096) hz3]

/-- A last-chunk point leaves the scale of the accumulation of its two input blocks over what it found. -/
theorem lastChunk_value (c : Dev nD) (i : grid0.Coords) (a2 : Memref sig .tc .vmem S1x256x4096 .f32) (h2 : a2.IsWhole) (a3 : Memref sig .tc .vmem S1x256x4096 .f32) (h3 : a3.IsWhole) (a4 : Memref sig .tc .vmem S1x1x4096 .f32) (h4 : a4.IsWhole) (hc0 : ¬cond0_0 i) (hc1 : cond0_1 i)
    (x y : Vec F S1x256x4096 .f32) (prev : Vec F S1x1x4096 .f32) :
    out0_B_2 c i a2 h2 a3 h3 a4 h4 hc0 hc1 x y prev = k0_pay3 (k0_pay2 x y prev) := by
  unfold out0_B_2
  rw [View.read_writes_eq_canon _ _ _ (cover0_B_2 c i a2 h2 a3 h3 a4 h4 hc0 hc1 x y prev)]
  unfold kernelRun0_B
  dsimp only
  sl_unfold_words
  rw [View.canon_cons_unit_zero (S := S1x1x4096) hz3, View.readCov_unit_zero (S := S1x1x4096) _ hz3]
  simp only [View.readAt_eq_ld, h2.read_unread, h3.read_unread, h4.read_unread, View.ld_unit_zero (S := S1x256x4096) hz3,
    View.ld_unit_zero (S := S1x1x4096) hz3]

/-- After an odd point the accumulator block holds the scaled sum of both chunks of its batch row. -/
theorem oddPoint_value (c : Dev nD) (t : Fin cfg0.N) (h : ¬t.val % 2 = 0) :
    outsAt0 m c t.val t.isLt
      = k0_pay3 (k0_pay2 (iblk m c 0 t) (iblk m c 1 t)
          (k0_pay2 (iblk m c 0 ⟨t.val - 1, Nat.lt_of_le_of_lt (Nat.sub_le _ _) t.isLt⟩) (iblk m c 1 ⟨t.val - 1, Nat.lt_of_le_of_lt (Nat.sub_le _ _) t.isLt⟩)
            (k0_pay1 (F := F)))) := by
  have he : (⟨t.val - 1, Nat.lt_of_le_of_lt (Nat.sub_le _ _) t.isLt⟩ : Fin cfg0.N).val % 2 = 0 := by
    show (t.val - 1) % 2 = 0
    omega
  rw [outsAt0_odd m c t h]
  unfold outOdd
  rw [lastChunk_value]
  rw [show outsAt0 m c (t.val - 1) (Nat.lt_of_le_of_lt (Nat.sub_le _ _) t.isLt)
      = outEven m c ⟨t.val - 1, Nat.lt_of_le_of_lt (Nat.sub_le _ _) t.isLt⟩ he from outsAt0_even m c ⟨t.val - 1, _⟩ he]
  unfold outEven
  rw [firstChunk_value]

end Cert.KernelIdeal.Frm

end
-- ==== Proof.LibMidAxis.lean ====
/-
  The middle axis of an [a, b, c] array: a row-major view, and a sum.

  A reshape keeps every element's row-major position, so an [n, c] array with n = a·b viewed as [a, b, c] holds at
  (p, k, d) the array's entry (p·b + k, d).  And, at the extended reals, the sum of an [a, b, c] vector along its middle
  axis (a lane reduction into [a, c], from the additive neutral word) is, at (p, f), the plain sum over k of the
  entries (p, k, f).
-/
import Idealize.ShloMosaic.Lib.Pipeline.Value
import Idealize.ShloMosaic.Lib.ValueIdx
import Idealize.ShloMosaic.PureOps.Ideal.Laws

noncomputable section

open scoped BigOperators

namespace Cert.LibMidAxis

open Idealize.ShloMosaic Idealize.ShloMosaic.ValueIdx

/-- An [n, c] array viewed as [a, b, c] holds at (p, k, d) the array's entry (p·b + k, d): the same row-major position. -/
theorem shapeCast_nc_abc_apply {α : Type} {n a b c : ℕ} (x : (⟨2, ![n, c]⟩ : Shape).Idx → α)
    (h : (⟨2, ![n, c]⟩ : Shape).ShapeCasts ⟨3, ![a, b, c]⟩)
    (p : Fin a) (k : Fin b) (d : Fin c) (r : Fin n) (hr : r.val = p.val * b + k.val) :
    shapeCast ⟨3, ![a, b, c]⟩ x h (ix3 p k d) = x (ix2 r d) :=
  shapeCast_apply x h _ _ (by
    rw [Shape.rowMajor_val_two, Shape.rowMajor_val_three]
    show r.val * c + d.val = (p.val * b + k.val) * c + d.val
    rw [hr])

/-- The index (p, f) with the middle coordinate k put back is (p, k, f). -/
theorem lift_mid {a b c : ℕ} (h : (⟨3, ![a, b, c]⟩ : Shape).Reduces [1] ⟨2, ![a, c]⟩) (p : Fin a) (f : Fin c)
    (k : Fin ((⟨3, ![a, b, c]⟩ : Shape).size 1)) : h.lift (ix2 p f) k = ix3 p (⟨k.val, k.isLt⟩ : Fin b) f := by
  funext ax
  refine Fin.ext ?_
  match ax with
  | ⟨0, _⟩ => rfl
  | ⟨1, _⟩ => rfl
  | ⟨2, _⟩ => rfl

/-- A lane sum of an [a, b, c] f32 vector along its MIDDLE axis, from the neutral word, at (p, f): the sum over k of
    the entries (p, k, f). -/
theorem midSum_apply {a b c : ℕ} (v : FVec Ideal ⟨3, ![a, b, c]⟩ .f32) (acc : BitVec 32)
    (h : (⟨3, ![a, b, c]⟩ : Shape).Reduces [1] ⟨2, ![a, c]⟩) (hφ : FKind.Formats .f32)
    (hacc : acc = FKind.add.neutral .f32 hφ) (p : Fin a) (f : Fin c) :
    multiReduction .add [1] ⟨2, ![a, c]⟩ v acc h hφ hacc (ix2 p f) = ∑ k : Fin b, v (ix3 p k f) := by
  refine (Ideal.multiReduction_add_single v acc h hφ hacc (ix2 p f)).trans ?_
  exact Finset.sum_congr rfl fun k _ => congrArg v (lift_mid h p f k)

end Cert.LibMidAxis

end
-- ==== Proof.IdealChunkValue.lean ====
/-
  What the kernel body computes, entry by entry, over the extended reals.  With x, y the two [1, 256, 4096] input
  blocks of a grid point and acc the [1, 1, 4096] accumulator block:
    the zero fill is 0 at every entry;
    the accumulation stores  acc(0,0,j) + Σ_{k<256} (x(0,k,j) − y(0,k,j))²  at (0,0,j);
    the closing scale stores  v(0,0,j) · 2⁻⁹  at (0,0,j)  (the f32 word 0x3B000000 kept as a word here).
-/
import proofs.«144198_j39676907888504_2_alg».proof.Proof.Gen.KernelIdeal.Skeleton
import proofs.«144198_j39676907888504_2_alg».proof.Proof.LibMidAxis
import Idealize.ShloMosaic.Lib.ValueIdx
import Idealize.ShloMosaic.Lib.ValueLayout
import Idealize.ShloMosaic.Lib.Pipeline.Value
import Idealize.ShloMosaic.PureOps.Ideal.Laws

noncomputable section

open scoped BigOperators

namespace Cert.KernelIdeal.Val

open Cert.KernelIdeal Cert.KernelIdeal.Gen Idealize.ShloMosaic Idealize.ShloMosaic.ValueIdx

/-- The zero fill: every entry of the accumulator block is 0. -/
theorem zeroFill_apply (j : S1x1x4096.Idx) : k0_pay1 (F := Ideal) j = 0 := by
  unfold k0_pay1
  show Ideal.ofBits .f32 0x00000000#32 = 0
  exact Ideal.ofBits_zero_f32

/-- The accumulation at (0, 0, j): the accumulator's entry plus the chunk's 256 squared differences in column j. -/
theorem accumulate_apply (x y : Vec Ideal S1x256x4096 .f32) (acc : Vec Ideal S1x1x4096 .f32)
    (u v : Fin 1) (j : Fin 4096) :
    k0_pay2 (F := Ideal) x y acc (ix3 u v j)
      = acc (ix3 u v j) + ∑ k : Fin 256, (x (ix3 (0 : Fin 1) k j) - y (ix3 (0 : Fin 1) k j)) * (x (ix3 (0 : Fin 1) k j) - y (ix3 (0 : Fin 1) k j)) := by
  unfold k0_pay2
  simp only [shapeCast_self]
  rw [addf_apply]
  refine congrArg (acc (ix3 u v j) + ·) ?_
  refine (shapeCast_ab_1ab_apply (a := 1) (b := 4096) _ shapeCasts_S1x4096_S1x1x4096 u v j).trans ?_
  have hv : v = (0 : Fin 1) := Subsingleton.elim _ _
  subst hv
  refine (Cert.LibMidAxis.midSum_apply (a := 1) (b := 256) (c := 4096) _ 0x00000000#32 reduces_S1x256x4096_S1x4096 (.inl rfl) rfl (0 : Fin 1) j).trans ?_
  rfl

/-- The closing scale at an entry: the entry times the f32 word of 2⁻⁹. -/
theorem scale_apply (w : Vec Ideal S1x1x4096 .f32) (j : S1x1x4096.Idx) :
    k0_pay3 (F := Ideal) w j = w j * Ideal.ofBits .f32 0x3B000000#32 := by
  unfold k0_pay3
  simp only [shapeCast_self]
  rfl

end Cert.KernelIdeal.Val

end
-- ==== Proof.IdealArrayValue.lean ====
/-
  The kernel's result array, entry by entry.  Grid point t handles batch row t / 2 and channel chunk t % 2: its two
  input blocks are rows [256·(t % 2), 256·(t % 2) + 256) of batch row t / 2 of the two [16, 512, 4096] arrays, and the
  output block of batch row t / 2 is written back at the odd points.  So the [16, 1, 4096] result array ends holding,
  at (p, 0, q), the two chunk sums of squared differences of batch row p and column q over zero, scaled by 2⁻⁹.
-/
import proofs.«144198_j39676907888504_2_alg».proof.Proof.IdealPointValue
import proofs.«144198_j39676907888504_2_alg».proof.Proof.IdealChunkValue

set_option maxRecDepth 16384

noncomputable section

open scoped BigOperators

namespace Cert.KernelIdeal.Frm

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

open Idealize.ShloMosaic.ValueIdx

variable (m : (ℓ : Loc nD τ sig) → Buf (Elt Ideal) ℓ)

/-- The squared difference of two [16, 512, 4096] arrays at batch row p, channel k, column q. -/
def sqDiff (A B : S16x512x4096.Idx → EReal) (p : Fin 16) (q : Fin 4096) (k : Fin 512) : EReal :=
  (A (ix3 p k q) - B (ix3 p k q)) * (A (ix3 p k q) - B (ix3 p k q))

/-- The two chunk sums over zero, scaled by the word of 2⁻⁹: what the kernel leaves for batch row p, column q. -/
def colMean (A B : S16x512x4096.Idx → EReal) (p : Fin 16) (q : Fin 4096) : EReal :=
  ((0 + ∑ k : Fin 256, sqDiff A B p q (Fin.castAdd 256 k)) + ∑ k : Fin 256, sqDiff A B p q (Fin.natAdd 256 k))
    * Ideal.ofBits .f32 0x3B000000#32

/-- The same as a [16, 1, 4096] array. -/
def meanArr (A B : S16x512x4096.Idx → EReal) : S16x1x4096.Idx → EReal := fun i =>
  colMean A B ⟨(i 0).val, (i 0).isLt⟩ ⟨(i 2).val, (i 2).isLt⟩

/-- An entry of the accumulator block after an odd point, from the four input blocks of its batch row. -/
theorem block_entry (x0 y0 x1 y1 : Vec Ideal S1x256x4096 .f32) (u v : Fin 1) (j : Fin 4096) :
    k0_pay3 (F := Ideal) (k0_pay2 x1 y1 (k0_pay2 x0 y0 (k0_pay1 (F := Ideal)))) (ix3 u v j)
      = ((0 + ∑ k : Fin 256, (x0 (ix3 (0 : Fin 1) k j) - y0 (ix3 (0 : Fin 1) k j)) * (x0 (ix3 (0 : Fin 1) k j) - y0 (ix3 (0 : Fin 1) k j)))
          + ∑ k : Fin 256, (x1 (ix3 (0 : Fin 1) k j) - y1 (ix3 (0 : Fin 1) k j)) * (x1 (ix3 (0 : Fin 1) k j) - y1 (ix3 (0 : Fin 1) k j)))
        * Ideal.ofBits .f32 0x3B000000#32 := by
  rw [Val.scale_apply, Val.accumulate_apply, Val.accumulate_apply, Val.zeroFill_apply]

/-- The printed index maps over the 32 grid points: batch row t / 2, channel chunk t % 2, all 4096 columns. -/
theorem idx_facts : ∀ t : Fin cfg0.N,
    win0_0.index t (0 : Fin 3) = t.val / 2 ∧ win0_0.index t (1 : Fin 3) = t.val % 2 ∧ win0_0.index t (2 : Fin 3) = 0
    ∧ win0_1.index t (0 : Fin 3) = t.val / 2 ∧ win0_1.index t (1 : Fin 3) = t.val % 2 ∧ win0_1.index t (2 : Fin 3) = 0
    ∧ win0_2.index t (0 : Fin 3) = t.val / 2 ∧ win0_2.index t (1 : Fin 3) = 0 ∧ win0_2.index t (2 : Fin 3) = 0 :=
  (by decide +kernel : ∀ t : Fin grid0.N, _)

/-- The first input window's block at point t, entry (0, k, j): the array's entry (t / 2, 256·(t % 2) + k, j). -/
theorem iblk0_apply (c : Dev nD) (t : Fin cfg0.N) (k : Fin 256) (j : Fin 4096) (p : Fin 16) (k' : Fin 512)
    (hp : p.val = t.val / 2) (hk : k'.val = 256 * (t.val % 2) + k.val) :
    iblk m c 0 t (ix3 (0 : Fin 1) k j) = V m c main_v0 (ix3 p k' j) := by
  obtain ⟨e0, e1, e2, -⟩ := idx_facts t
  unfold iblk
  rw [View.read_apply]
  show V m c main_v0 (((cfg0.win 0).blk t).view.emb (ix3 (0 : Fin 1) k j)) = V m c main_v0 (ix3 p k' j)
  refine congrArg (V m c main_v0) ?_
  funext a; apply Fin.ext
  match a with
  | ⟨0, _⟩ => show win0_0.index t (0 : Fin 3) * 1 + 1 * 0 = p.val; omega
  | ⟨1, _⟩ => show win0_0.index t (1 : Fin 3) * 256 + 1 * k.val = k'.val; omega
  | ⟨2, _⟩ => show win0_0.index t (2 : Fin 3) * 4096 + 1 * j.val = j.val; omega

/-- The same for the second input window. -/
theorem iblk1_apply (c : Dev nD) (t : Fin cfg0.N) (k : Fin 256) (j : Fin 4096) (p : Fin 16) (k' : Fin 512)
    (hp : p.val = t.val / 2) (hk : k'.val = 256 * (t.val % 2) + k.val) :
    iblk m c 1 t (ix3 (0 : Fin 1) k j) = V m c main_v1 (ix3 p k' j) := by
  obtain ⟨-, -, -, e0, e1, e2, -⟩ := idx_facts t
  unfold iblk
  rw [View.read_apply]
  show V m c main_v1 (((cfg0.win 1).blk t).view.emb (ix3 (0 : Fin 1) k j)) = V m c main_v1 (ix3 p k' j)
  refine congrArg (V m c main_v1) ?_
  funext a; apply Fin.ext
  match a with
  | ⟨0, _⟩ => show win0_1.index t (0 : Fin 3) * 1 + 1 * 0 = p.val; omega
  | ⟨1, _⟩ => show win0_1.index t (1 : Fin 3) * 256 + 1 * k.val = k'.val; omega
  | ⟨2, _⟩ => show win0_1.index t (2 : Fin 3) * 4096 + 1 * j.val = j.val; omega

/-- What an odd point writes back is its block of the mean array of the two staged arrays as the region finds them. -/
theorem flushed_eq (c : Dev nD) (t : Fin cfg0.N) (h : ¬t.val % 2 = 0) :
    (dats m 0 c).flushed 2 t = ((cfg0.win 2).blk t).view.read (Elt Ideal) (meanArr (V m c main_v0) (V m c main_v1)) := by
  have hN : t.val < 32 := lt_of_lt_of_eq t.isLt (show cfg0.N = 32 from N_0)
  obtain ⟨-, -, -, -, -, -, e0, e1, e2⟩ := idx_facts t
  show (cfg0.win 2).cut (grid0.coords t) ((dats m 0 c).after 2 t) = _
  rw [after0_2, oddPoint_value m c t h]
  funext y
  obtain ⟨u, v, j, rfl⟩ : ∃ (u : Fin 1) (v : Fin 1) (j : Fin 4096), y = ix3 u v j := ⟨y 0, y 1, y 2, eq_ix3 y⟩
  rw [View.read_apply]
  refine (block_entry _ _ _ _ u v j).trans ?_
  have hu : u.val = 0 := by omega
  have hp : ((⟨(((cfg0.win 2).blk t).view.emb (ix3 u v j) 0).val, (((cfg0.win 2).blk t).view.emb (ix3 u v j) 0).isLt⟩ : Fin 16)).val = t.val / 2 := by
    show win0_2.index t (0 : Fin 3) * 1 + 1 * u.val = t.val / 2; omega
  have hq : ((⟨(((cfg0.win 2).blk t).view.emb (ix3 u v j) 2).val, (((cfg0.win 2).blk t).view.emb (ix3 u v j) 2).isLt⟩ : Fin 4096)) = j := by
    apply Fin.ext
    show win0_2.index t (2 : Fin 3) * 4096 + 1 * j.val = j.val; omega
  unfold meanArr colMean
  rw [hq]
  refine congrArg (· * Ideal.ofBits .f32 0x3B000000#32) ?_
  refine congrArg₂ (· + ·) (congrArg (0 + ·) (Finset.sum_congr rfl fun k _ => ?_)) (Finset.sum_congr rfl fun k _ => ?_)
  · unfold sqDiff
    rw [iblk0_apply m c ⟨t.val - 1, _⟩ k j _ (Fin.castAdd 256 k) (by rw [hp]; show t.val / 2 = (t.val - 1) / 2; omega) (by show k.val = 256 * ((t.val - 1) % 2) + k.val; omega),
      iblk1_apply m c ⟨t.val - 1, _⟩ k j _ (Fin.castAdd 256 k) (by rw [hp]; show t.val / 2 = (t.val - 1) / 2; omega) (by show k.val = 256 * ((t.val - 1) % 2) + k.val; omega)]
  · unfold sqDiff
    rw [iblk0_apply m c t k j _ (Fin.natAdd 256 k) hp (by show 256 + k.val = 256 * (t.val % 2) + k.val; omega),
      iblk1_apply m c t k j _ (Fin.natAdd 256 k) hp (by show 256 + k.val = 256 * (t.val % 2) + k.val; omega)]

/-- An index of the result array is in point t's block iff each coordinate is in the block's range on its axis. -/
theorem mem_blk2 (t : Fin cfg0.N) (i : S16x1x4096.Idx) :
    i ∈ ((cfg0.win 2).blk t).view.set ↔ ∀ a : Fin 3, win0_2.index t a * S1x1x4096.size a ≤ (i a).val ∧ (i a).val < win0_2.index t a * S1x1x4096.size a + S1x1x4096.size a := by
  show i ∈ ((View.whole main_v2).slice (win0_2.rect t)).set ↔ _
  rw [View.set_slice_whole, Rect.mem_set_unit]
  exact Iff.rfl

/-- The result array after the run: batch row p is covered by the odd point 2·p + 1. -/
theorem result_array (c : Dev nD) : (dats m 0 c).arrAt 2 cfg0.N = meanArr (V m c main_v0) (V m c main_v1) :=
  (dats m 0 c).arrAt_eq_of_cover 2 _ (fun t hf => flushed_eq m c t (by have := (flush0_2 t).mp hf; omega)) fun i => by
    have h0 : (i 0).val < 16 := (i 0).isLt
    have h1 : (i 1).val < 1 := (i 1).isLt
    have h2 : (i 2).val < 4096 := (i 2).isLt
    have hN : cfg0.N = 32 := N_0
    obtain ⟨-, -, -, -, -, -, e0, e1, e2⟩ := idx_facts ⟨2 * (i 0).val + 1, by omega⟩
    refine ⟨⟨2 * (i 0).val + 1, by omega⟩, (flush0_2 _).mpr (by show (2 * (i 0).val + 1) % 2 = 1; omega), ?_⟩
    rw [mem_blk2]
    intro a
    match a with
    | ⟨0, _⟩ =>
      show win0_2.index ⟨2 * (i 0).val + 1, _⟩ (0 : Fin 3) * 1 ≤ (i 0).val ∧ (i 0).val < win0_2.index ⟨2 * (i 0).val + 1, _⟩ (0 : Fin 3) * 1 + 1
      rw [e0]; show (2 * (i 0).val + 1) / 2 * 1 ≤ (i 0).val ∧ (i 0).val < (2 * (i 0).val + 1) / 2 * 1 + 1; omega
    | ⟨1, _⟩ =>
      show win0_2.index ⟨2 * (i 0).val + 1, _⟩ (1 : Fin 3) * 1 ≤ (i 1).val ∧ (i 1).val < win0_2.index ⟨2 * (i 0).val + 1, _⟩ (1 : Fin 3) * 1 + 1
      rw [e1]; omega
    | ⟨2, _⟩ =>
      show win0_2.index ⟨2 * (i 0).val + 1, _⟩ (2 : Fin 3) * 4096 ≤ (i 2).val ∧ (i 2).val < win0_2.index ⟨2 * (i 0).val + 1, _⟩ (2 : Fin 3) * 4096 + 4096
      rw [e2]; omega

end Cert.KernelIdeal.Frm

end
-- ==== Proof.MeanOfChunks.lean ====
/-
  A mean over 512 terms taken in two chunks of 256.  Over the extended reals, summing the first 256 terms onto zero,
  then the last 256 onto that, and multiplying by 2⁻⁹ (the f32 word 0x3B000000) is dividing the sum of all 512 terms
  over zero by 512 (the f32 word 0x44000000): addition of extended reals is associative, and division by the nonzero
  real 512 is multiplication by its reciprocal at every extended real, the infinities included.
-/
import Idealize.ShloMosaic.PureOps.Ideal
import Idealize.ShloMosaic.PureOps.Ideal.Laws

noncomputable section

open scoped BigOperators

namespace Cert.MeanOfChunks

open Idealize.ShloMosaic

/-- The f32 word 0x44000000 is the real 512. -/
theorem word_512 : Ideal.ofBits .f32 0x44000000#32 = ((512 : ℝ) : EReal) := by
  simp [Ideal.ofBits, Ideal.ieee, -EReal.coe_mul]; norm_num

/-- The f32 word 0x3B000000 is the real 1/512. -/
theorem word_inv512 : Ideal.ofBits .f32 0x3B000000#32 = ((1 / 512 : ℝ) : EReal) := by
  simp [Ideal.ofBits, Ideal.ieee, -EReal.coe_mul]; norm_num

/-- The two chunk sums, scaled, are the whole sum divided by 512. -/
theorem two_chunks_scaled (f : Fin 512 → EReal) :
    ((0 + ∑ k : Fin 256, f (Fin.castAdd 256 k)) + ∑ k : Fin 256, f (Fin.natAdd 256 k)) * Ideal.ofBits .f32 0x3B000000#32
      = Ideal.div (Ideal.ofBits .f32 0x00000000#32 + ∑ k : Fin 512, f k) (Ideal.ofBits .f32 0x44000000#32) := by
  rw [word_512, word_inv512, Ideal.ofBits_zero_f32, Ideal.div_coe (by norm_num : (512 : ℝ) ≠ 0), zero_add, zero_add]
  refine congrArg (· * ((1 / 512 : ℝ) : EReal)) ?_
  exact (Fin.sum_univ_add (a := 256) (b := 256) f).symm

end Cert.MeanOfChunks

end
-- ==== Proof.LibFlatPixels.lean ====
/-
  The last two axes of an array flattened into one, read at an index.

  A reshape keeps every element's row-major position.  So an [a, b, c, d] array viewed as [a, b, n] with n = c·d holds
  at (p, k, e·d + w) the array's entry (p, k, e, w)  [shapeCast_abcd_abn_apply];  and an [a, 1, n] array viewed as
  [a, c, d] with n = c·d holds at (p, e, w) the array's entry (p, 0, e·d + w)  [shapeCast_a1n_acd_apply].
-/
import Idealize.ShloMosaic.Lib.Pipeline.Value
import Idealize.ShloMosaic.Lib.ValueIdx

noncomputable section

namespace Cert.LibFlatPixels

open Idealize.ShloMosaic Idealize.ShloMosaic.ValueIdx

/-- An [a, b, c, d] array viewed as [a, b, n], n = c·d, holds at (p, k, r) with r = e·d + w the entry (p, k, e, w):
    the same row-major position. -/
theorem shapeCast_abcd_abn_apply {α : Type} {a b c d n : ℕ} (x : (⟨4, ![a, b, c, d]⟩ : Shape).Idx → α)
    (h : (⟨4, ![a, b, c, d]⟩ : Shape).ShapeCasts ⟨3, ![a, b, n]⟩)
    (p : Fin a) (k : Fin b) (e : Fin c) (w : Fin d) (r : Fin n) (hn : n = c * d) (hr : r.val = e.val * d + w.val) :
    shapeCast ⟨3, ![a, b, n]⟩ x h (ix3 p k r) = x (ix4 p k e w) :=
  shapeCast_apply x h _ _ (by
    rw [Shape.rowMajor_val_four, Shape.rowMajor_val_three]
    show ((p.val * b + k.val) * c + e.val) * d + w.val = (p.val * b + k.val) * n + r.val
    rw [hr, hn]; ring)

/-- An [a, 1, n] array viewed as [a, c, d], n = c·d, holds at (p, e, w) the entry (p, 0, r) with r = e·d + w:
    the same row-major position. -/
theorem shapeCast_a1n_acd_apply {α : Type} {a c d n : ℕ} (x : (⟨3, ![a, 1, n]⟩ : Shape).Idx → α)
    (h : (⟨3, ![a, 1, n]⟩ : Shape).ShapeCasts ⟨3, ![a, c, d]⟩)
    (p : Fin a) (e : Fin c) (w : Fin d) (r : Fin n) (hn : n = c * d) (hr : r.val = e.val * d + w.val) :
    shapeCast ⟨3, ![a, c, d]⟩ x h (ix3 p e w) = x (ix3 p (0 : Fin 1) r) :=
  shapeCast_apply x h _ _ (by
    rw [Shape.rowMajor_val_three, Shape.rowMajor_val_three]
    show (p.val * 1 + 0) * n + r.val = (p.val * c + e.val) * d + w.val
    rw [hr, hn]; ring)

end Cert.LibFlatPixels

end
-- ==== Proof.LossMetricBridge.lean ====
/-
  The kernel's result array, viewed per pixel, is the reference's mean of squared differences.  The region stages
  the two feature arrays reshaped to [16, 512, 4096] (pixel q = 64·h + w) and the lines after it view the
  [16, 1, 4096] result as [16, 64, 64]; the reference sums the 512 squared differences of a pixel over zero and
  divides by 512.  Entry by entry both are one extended real: the kernel's two chunk sums scaled by 2⁻⁹ are the
  whole sum divided by 512.
-/
import proofs.«144198_j39676907888504_2_alg».proof.Proof.IdealArrayValue
import proofs.«144198_j39676907888504_2_alg».proof.Proof.MeanOfChunks
import proofs.«144198_j39676907888504_2_alg».proof.Proof.LibFlatPixels
import proofs.«144198_j39676907888504_2_alg».proof.Proof.Gen.ReferenceIdeal.Read

set_option maxRecDepth 16384

noncomputable section

open scoped BigOperators

namespace Cert.KernelIdeal.Frm

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

open Idealize.ShloMosaic.ValueIdx

variable (m : (ℓ : Loc nD τ sig) → Buf (Elt Ideal) ℓ)

/-- The first staged array is the first argument with its two pixel axes flattened. -/
theorem staged0 (c : Dev nD) : (V m c main_v0 : S16x512x4096.Idx → EReal)
    = shapeCast S16x512x4096 (m ((c : Thread nD τ).loc main_arg0)) shapeCasts_S16x512x64x64_S16x512x4096 := by
  dsimp only [V, V0]
  simp only [hostOps0, List.flatten_cons, List.flatten_nil, List.append_nil]
  after_results
  rfl

/-- The second staged array is the second argument with its two pixel axes flattened. -/
theorem staged1 (c : Dev nD) : (V m c main_v1 : S16x512x4096.Idx → EReal)
    = shapeCast S16x512x4096 (m ((c : Thread nD τ).loc main_arg1)) shapeCasts_S16x512x64x64_S16x512x4096 := by
  dsimp only [V, V0]
  simp only [hostOps0, List.flatten_cons, List.flatten_nil, List.append_nil]
  after_results
  rfl

/-- A squared difference of the staged arrays at (p, k, 64·e + w) is that of the arguments at (p, k, e, w). -/
theorem sqDiff_staged (x0 x1 : S16x512x64x64.Idx → EReal) (p : Fin 16) (e w : Fin 64) (q : Fin 4096)
    (hq : q.val = e.val * 64 + w.val) (k : Fin 512) :
    sqDiff (shapeCast S16x512x4096 x0 shapeCasts_S16x512x64x64_S16x512x4096)
        (shapeCast S16x512x4096 x1 shapeCasts_S16x512x64x64_S16x512x4096) p q k
      = (x0 (ix4 p k e w) - x1 (ix4 p k e w)) * (x0 (ix4 p k e w) - x1 (ix4 p k e w)) := by
  unfold sqDiff
  rw [Cert.LibFlatPixels.shapeCast_abcd_abn_apply (a := 16) (b := 512) (c := 64) (d := 64) (n := 4096) x0 shapeCasts_S16x512x64x64_S16x512x4096 p k e w q rfl hq,
    Cert.LibFlatPixels.shapeCast_abcd_abn_apply (a := 16) (b := 512) (c := 64) (d := 64) (n := 4096) x1 shapeCasts_S16x512x64x64_S16x512x4096 p k e w q rfl hq]

/-- Per pixel, the mean array of the two flattened arguments is the reference's sum over zero divided by 512. -/
theorem pixel_mean (x0 x1 : S16x512x64x64.Idx → EReal) (i : S16x64x64.Idx) :
    shapeCast S16x64x64 (meanArr (shapeCast S16x512x4096 x0 shapeCasts_S16x512x64x64_S16x512x4096)
        (shapeCast S16x512x4096 x1 shapeCasts_S16x512x64x64_S16x512x4096)) shapeCasts_S16x1x4096_S16x64x64 i
      = Cert.ReferenceIdeal.Read.val_main_v4 (F := Ideal) x0 x1 i := by
  obtain ⟨p, e, w, rfl⟩ : ∃ (p : Fin 16) (e : Fin 64) (w : Fin 64), i = ix3 p e w := ⟨i 0, i 1, i 2, eq_ix3 i⟩
  have hlt : e.val * 64 + w.val < 4096 := by omega
  refine (Cert.LibFlatPixels.shapeCast_a1n_acd_apply (a := 16) (c := 64) (d := 64) (n := 4096) _ shapeCasts_S16x1x4096_S16x64x64 p e w ⟨e.val * 64 + w.val, hlt⟩ rfl rfl).trans ?_
  rw [Cert.ReferenceIdeal.Read.val_main_v4_apply, Cert.ReferenceIdeal.Read.val_main_v2_apply, Cert.ReferenceIdeal.Read.val_main_v3_apply,
    Cert.ReferenceIdeal.Read.val_main_cst_0_apply, Cert.ReferenceIdeal.Read.val_main_cst_apply]
  simp only [Cert.ReferenceIdeal.Read.val_main_v1_apply, Cert.ReferenceIdeal.Read.val_main_v0_apply, Ideal.hostDivf_def, Ideal.subf_def, Ideal.mulf_def, Ideal.ofBits_def]
  have hidx : ∀ k : Fin 512, Cert.ReferenceIdeal.Read.idx_main_v2 (ix3 p e w) k = ix4 p k e w := fun k =>
    funext fun a => Fin.ext (by match a with | ⟨0, _⟩ => rfl | ⟨1, _⟩ => rfl | ⟨2, _⟩ => rfl | ⟨3, _⟩ => rfl)
  simp only [hidx]
  refine Eq.trans ?_ (Cert.MeanOfChunks.two_chunks_scaled
    (fun k => (x0 (ix4 p k e w) - x1 (ix4 p k e w)) * (x0 (ix4 p k e w) - x1 (ix4 p k e w))))
  unfold meanArr colMean
  refine congrArg (· * Ideal.ofBits .f32 0x3B000000#32) ?_
  refine congrArg₂ (· + ·) (congrArg (0 + ·) (Finset.sum_congr rfl fun k _ => ?_)) (Finset.sum_congr rfl fun k _ => ?_)
  · exact sqDiff_staged x0 x1 p e w _ rfl _
  · exact sqDiff_staged x0 x1 p e w _ rfl _

/-- The result array viewed per pixel is the reference's mean of squared differences of the two arguments. -/
theorem lossMetric_eq (c : Dev nD) :
    (fun i => shapeCast main_v3.ty.shape ((dats m 0 c).arrAt 2 cfg0.N) shapeCasts_S16x1x4096_S16x64x64 i)
      = Cert.ReferenceIdeal.Read.val_main_v4 (F := Ideal) (m ((c : Thread nD τ).loc main_arg0)) (m ((c : Thread nD τ).loc main_arg1)) := by
  rw [result_array m c, staged0, staged1]
  funext i
  exact pixel_mean _ _ i

end Cert.KernelIdeal.Frm

end
-- ==== Proof.IdealTail.lean ====
/-
  The host operations both programs apply to the per-pixel mean L and the mask M, as one function: the segment id
  of a pixel is its mask value plus five times its batch row; the segment sums of L and the segment counts are
  scattered into 80 bins; each pixel takes its segment's mean (sum over the count, the count at least one); the means
  are divided by their maximum plus 1e-6 when that maximum is positive (else shifted by 1e-6), clipped to [0, 1],
  doubled and increased by one; the result is the mean over the 65536 pixels of L times that weight.
-/
import proofs.«144198_j39676907888504_2_alg».proof.KernelIdeal
import proofs.«144198_j39676907888504_2_alg».proof.Proof.Gen.KernelIdeal

noncomputable section

namespace Cert.KernelIdeal.Tail

open Cert.KernelIdeal Cert.KernelIdeal.Gen Idealize.ShloMosaic Idealize.SL.Sem

variable {F : FTy → Type} [FloatOps F]

/-- The shared host operations, from the per-pixel mean and the mask to the returned scalar. -/
def hostTail (L : (⟨S16x64x64, .f32⟩ : BufTy).Contents (Elt F)) (M : (⟨S16x64x64, .i32⟩ : BufTy).Contents (Elt F)) : (⟨S_, .f32⟩ : BufTy).Contents (Elt F) :=
  let seg : (⟨S65536, .i32⟩ : BufTy).Contents (Elt F) :=
    shapeCast S65536
      (addi M (broadcastInDim S16x64x64 ![0, 1, 2] bcast_S16x1x1_S16x64x64_0_1_2
        (muli (broadcastInDim S16x1x1 ![0] bcast_S16_S16x1x1_0 (iotaInDim S16 32 0))
          (broadcastInDim S16x1x1 ![] bcast_S_S16x1x1 (constantI S_ 32 5#32)))))
      shapeCasts_S16x64x64_S65536
  let segCol : (⟨S65536x1, .i32⟩ : BufTy).Contents (Elt F) := broadcastInDim S65536x1 ![0] bcast_S65536_S65536x1_0 seg
  let sums : (⟨S80, .f32⟩ : BufTy).Contents (Elt F) :=
    Host.scatterAdd scatter_S80_S65536x1_S65536_n_0_0_1 (broadcastInDim S80 ![] bcast_S_S80 (constant S_ .f32 0x00000000#32))
      segCol (shapeCast S65536 L shapeCasts_S16x64x64_S65536)
  let counts : (⟨S80, .f32⟩ : BufTy).Contents (Elt F) :=
    Host.scatterAdd scatter_S80_S65536x1_S65536_n_0_0_1 (broadcastInDim S80 ![] bcast_S_S80 (constant S_ .f32 0x00000000#32))
      segCol (broadcastInDim S65536 ![] bcast_S_S65536 (constant S_ .f32 0x3F800000#32))
  let avg : (⟨S80, .f32⟩ : BufTy).Contents (Elt F) :=
    Host.divf sums (maximumf counts (broadcastInDim S80 ![] bcast_S_S80 (constant S_ .f32 0x3F800000#32)))
  let wrapped : (⟨S65536, .i32⟩ : BufTy).Contents (Elt F) :=
    select (cmpi .slt seg (broadcastInDim S65536 ![] bcast_S_S65536 (constantI S_ 32 0#32)))
      (addi seg (broadcastInDim S65536 ![] bcast_S_S65536 (constantI S_ 32 80#32))) seg
  let w : (⟨S16x64x64, .f32⟩ : BufTy).Contents (Elt F) :=
    shapeCast S16x64x64
      (Host.gather gather_S80_S65536x1_S65536_n_0_n_n_0_1_1 avg (broadcastInDim S65536x1 ![0] bcast_S65536_S65536x1_0 wrapped))
      shapeCasts_S65536_S16x64x64
  let wmax : (⟨S_, .f32⟩ : BufTy).Contents (Elt F) :=
    Host.reduce FloatOps.maximumf w (constant S_ .f32 0xFF800000#32) reducesTo_S16x64x64_S_d0_1_2 h_S_
  let normed : (⟨S16x64x64, .f32⟩ : BufTy).Contents (Elt F) :=
    select (broadcastInDim S16x64x64 ![] bcast_S_S16x64x64 (cmpf .ogt wmax (constant S_ .f32 0x00000000#32)))
      (Host.divf w (broadcastInDim S16x64x64 ![] bcast_S_S16x64x64 (addf wmax (constant S_ .f32 0x358637BD#32))))
      (addf w (broadcastInDim S16x64x64 ![] bcast_S_S16x64x64 (constant S_ .f32 0x358637BD#32)))
  let clipped : (⟨S16x64x64, .f32⟩ : BufTy).Contents (Elt F) :=
    minimumf (broadcastInDim S16x64x64 ![] bcast_S_S16x64x64 (id (constant S_ .f32 0x3F800000#32)))
      (maximumf (broadcastInDim S16x64x64 ![] bcast_S_S16x64x64 (id (constant S_ .f32 0x00000000#32))) normed)
  let weight : (⟨S16x64x64, .f32⟩ : BufTy).Contents (Elt F) :=
    addf (mulf clipped (broadcastInDim S16x64x64 ![] bcast_S_S16x64x64 (constant S_ .f32 0x40000000#32)))
      (broadcastInDim S16x64x64 ![] bcast_S_S16x64x64 (constant S_ .f32 0x3F800000#32))
  Host.divf (Host.reduceAdd (mulf L weight) (constant S_ .f32 0x00000000#32) reducesTo_S16x64x64_S_d0_1_2 h_S_)
    (constant S_ .f32 0x47800000#32)

end Cert.KernelIdeal.Tail

end
-- ==== Proof.KernelResult.lean ====
/-
  The kernel program's returned scalar is the shared host operations applied to its result array viewed per pixel
  and to the mask: the lines after the region run from the region's exit, where the result array holds what the
  grid left and the mask is as launched.
-/
import proofs.«144198_j39676907888504_2_alg».proof.Proof.IdealFrame
import proofs.«144198_j39676907888504_2_alg».proof.Proof.IdealTail
import Idealize.ShloMosaic.PureOps.Ideal

set_option maxRecDepth 16384

noncomputable section

namespace Cert.KernelIdeal.Frm

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable (m : (ℓ : Loc nD τ sig) → Buf (Elt Ideal) ℓ) (ρ : Dev nD → PrngReg)

/-- The scalar the kernel's program returns: the later lines run from the region's exit. -/
def result (c : Dev nD) : Buf (Elt Ideal) ((c.tc : Thread nD τ).loc main_v45) :=
  Pipeline.afterTail₀ cfgs (dats m) 0 (V0 m) tailOps c main_v45

/-- The kernel's program runs to the end with its result buffer at that scalar and its arguments as launched. -/
theorem run : θ_run defs (onTc (τ := τ) (main (F := Ideal))) ⟨m, fun _ => 0, ρ⟩ (fun r => ∀ c : Dev nD,
      r.2.mem ((c.tc : Thread nD τ).loc main_v45) = result m c
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)) :=
  (θ_run defs _ _).mono (fun _ h c =>
    ⟨(h c).2 main_v45 (Pipeline.mem_restRefs_of main_v45 (by decide) (by decide)),
     ((h c).2 main_arg0 (Pipeline.mem_restRefs_of main_arg0 (by decide) (by decide))).trans (W_main_arg0 m (dats m) c),
     ((h c).2 main_arg1 (Pipeline.mem_restRefs_of main_arg1 (by decide) (by decide))).trans (W_main_arg1 m (dats m) c),
     ((h c).2 main_arg2 (Pipeline.mem_restRefs_of main_arg2 (by decide) (by decide))).trans (W_main_arg2 m (dats m) c)⟩)
    (run_main m ρ)

/-- The select of the normalisation, a called function's one line, as a plain operation on its four buffers. -/
theorem whereOps_eq : (hostOps1_1 : List (HloOp τ sig (Elt Ideal))) =
    [StableHlo.ternary main_v31 main_v34 main_v36 main_v37
      ((fun p a b => select (broadcastInDim S16x64x64 ![] bcast_S_S16x64x64 p) a b) : (⟨S_, .i1⟩ : BufTy).Contents (Elt Ideal) → (⟨S16x64x64, .f32⟩ : BufTy).Contents (Elt Ideal) → (⟨S16x64x64, .f32⟩ : BufTy).Contents (Elt Ideal) → (⟨S16x64x64, .f32⟩ : BufTy).Contents (Elt Ideal))] := rfl

/-- The clip's six lines, a called function's, as plain operations on their buffers. -/
theorem clipOps_eq : (hostOps1_3 : List (HloOp τ sig (Elt Ideal))) =
    [StableHlo.unary main_cst_9 main_call1_v0 (id : (⟨S_, .f32⟩ : BufTy).Contents (Elt Ideal) → (⟨S_, .f32⟩ : BufTy).Contents (Elt Ideal)),
     StableHlo.unary main_call1_v0 main_call1_v1 (broadcastInDim S16x64x64 ![] bcast_S_S16x64x64 : (⟨S_, .f32⟩ : BufTy).Contents (Elt Ideal) → (⟨S16x64x64, .f32⟩ : BufTy).Contents (Elt Ideal)),
     StableHlo.binary main_call1_v1 main_v37 main_call1_v2 (maximumf (F := Ideal) (s := S16x64x64) (φ := .f32)),
     StableHlo.unary main_cst_10 main_call1_v3 (id : (⟨S_, .f32⟩ : BufTy).Contents (Elt Ideal) → (⟨S_, .f32⟩ : BufTy).Contents (Elt Ideal)),
     StableHlo.unary main_call1_v3 main_call1_v4 (broadcastInDim S16x64x64 ![] bcast_S_S16x64x64 : (⟨S_, .f32⟩ : BufTy).Contents (Elt Ideal) → (⟨S16x64x64, .f32⟩ : BufTy).Contents (Elt Ideal)),
     StableHlo.binary main_call1_v4 main_call1_v2 main_v38 (minimumf (F := Ideal) (s := S16x64x64) (φ := .f32))] := rfl

set_option maxHeartbeats 2000000 in
/-- That scalar is the shared host operations of the result array viewed per pixel and of the mask. -/
theorem result_eq_tail (c : Dev nD) :
    result m c = Cert.KernelIdeal.Tail.hostTail (F := Ideal)
      (fun i => shapeCast main_v3.ty.shape ((dats m 0 c).arrAt 2 cfg0.N) shapeCasts_S16x1x4096_S16x64x64 i)
      (m ((c.tc : Thread nD τ).loc main_arg2)) := by
  unfold result Pipeline.afterTail₀
  generalize hW : Pipeline.withArrays (cfgs 0).spec c (V0 m c) (fun w => (dats m 0 c).arrAt w (cfgs 0).N) = W
  have hX : W (Proc.devRef .tc main_v2) = (dats m 0 c).arrAt 2 cfg0.N := by
    rw [← hW]; exact Pipeline.withArrays_arr spec0 launch0.win.arr_inj c _ _ 2
  have hM : W (Proc.devRef .tc main_arg2) = m ((c.tc : Thread nD τ).loc main_arg2) := by
    rw [← hW, Pipeline.withArrays_of_ne _ c (V0 m c) _ main_arg2 (by exact (by decide : ∀ w, Pipeline.arrRef spec0 w ≠ main_arg2))]
    exact V_main_arg2 m c
  rw [show (tailOps : List (List (HloOp τ sig (Elt Ideal)))) = [hostOps1, hostOps1_1, hostOps1_2, hostOps1_3, hostOps1_4] from rfl, whereOps_eq, clipOps_eq]
  simp only [hostOps1, hostOps1_2, hostOps1_4, List.flatten_cons, List.flatten_nil, List.append_nil, List.cons_append, List.nil_append]
  after_results_simp
  rw [hX, hM]
  generalize (dats m 0 c).arrAt 2 cfg0.N = X
  generalize m ((c.tc : Thread nD τ).loc main_arg2) = M
  unfold Cert.KernelIdeal.Tail.hostTail
  rfl

end Cert.KernelIdeal.Frm

end
-- ==== Proof.RefTail.lean ====
/-
  The host operations both programs apply to the per-pixel mean L and the mask M, as one function: the segment id
  of a pixel is its mask value plus five times its batch row; the segment sums of L and the segment counts are
  scattered into 80 bins; each pixel takes its segment's mean (sum over the count, the count at least one); the means
  are divided by their maximum plus 1e-6 when that maximum is positive (else shifted by 1e-6), clipped to [0, 1],
  doubled and increased by one; the result is the mean over the 65536 pixels of L times that weight.
-/
import proofs.«144198_j39676907888504_2_alg».proof.ReferenceIdeal
import proofs.«144198_j39676907888504_2_alg».proof.Proof.Gen.ReferenceIdeal

noncomputable section

namespace Cert.ReferenceIdeal.Tail

open Cert.ReferenceIdeal Cert.ReferenceIdeal.Gen Idealize.ShloMosaic Idealize.SL.Sem

variable {F : FTy → Type} [FloatOps F]

/-- The shared host operations, from the per-pixel mean and the mask to the returned scalar. -/
def hostTail (L : (⟨S16x64x64, .f32⟩ : BufTy).Contents (Elt F)) (M : (⟨S16x64x64, .i32⟩ : BufTy).Contents (Elt F)) : (⟨S_, .f32⟩ : BufTy).Contents (Elt F) :=
  let seg : (⟨S65536, .i32⟩ : BufTy).Contents (Elt F) :=
    shapeCast S65536
      (addi M (broadcastInDim S16x64x64 ![0, 1, 2] bcast_S16x1x1_S16x64x64_0_1_2
        (muli (broadcastInDim S16x1x1 ![0] bcast_S16_S16x1x1_0 (iotaInDim S16 32 0))
          (broadcastInDim S16x1x1 ![] bcast_S_S16x1x1 (constantI S_ 32 5#32)))))
      shapeCasts_S16x64x64_S65536
  let segCol : (⟨S65536x1, .i32⟩ : BufTy).Contents (Elt F) := broadcastInDim S65536x1 ![0] bcast_S65536_S65536x1_0 seg
  let sums : (⟨S80, .f32⟩ : BufTy).Contents (Elt F) :=
    Host.scatterAdd scatter_S80_S65536x1_S65536_n_0_0_1 (broadcastInDim S80 ![] bcast_S_S80 (constant S_ .f32 0x00000000#32))
      segCol (shapeCast S65536 L shapeCasts_S16x64x64_S65536)
  let counts : (⟨S80, .f32⟩ : BufTy).Contents (Elt F) :=
    Host.scatterAdd scatter_S80_S65536x1_S65536_n_0_0_1 (broadcastInDim S80 ![] bcast_S_S80 (constant S_ .f32 0x00000000#32))
      segCol (broadcastInDim S65536 ![] bcast_S_S65536 (constant S_ .f32 0x3F800000#32))
  let avg : (⟨S80, .f32⟩ : BufTy).Contents (Elt F) :=
    Host.divf sums (maximumf counts (broadcastInDim S80 ![] bcast_S_S80 (constant S_ .f32 0x3F800000#32)))
  let wrapped : (⟨S65536, .i32⟩ : BufTy).Contents (Elt F) :=
    select (cmpi .slt seg (broadcastInDim S65536 ![] bcast_S_S65536 (constantI S_ 32 0#32)))
      (addi seg (broadcastInDim S65536 ![] bcast_S_S65536 (constantI S_ 32 80#32))) seg
  let w : (⟨S16x64x64, .f32⟩ : BufTy).Contents (Elt F) :=
    shapeCast S16x64x64
      (Host.gather gather_S80_S65536x1_S65536_n_0_n_n_0_1_1 avg (broadcastInDim S65536x1 ![0] bcast_S65536_S65536x1_0 wrapped))
      shapeCasts_S65536_S16x64x64
  let wmax : (⟨S_, .f32⟩ : BufTy).Contents (Elt F) :=
    Host.reduce FloatOps.maximumf w (constant S_ .f32 0xFF800000#32) reducesTo_S16x64x64_S_d0_1_2 h_S_
  let normed : (⟨S16x64x64, .f32⟩ : BufTy).Contents (Elt F) :=
    select (broadcastInDim S16x64x64 ![] bcast_S_S16x64x64 (cmpf .ogt wmax (constant S_ .f32 0x00000000#32)))
      (Host.divf w (broadcastInDim S16x64x64 ![] bcast_S_S16x64x64 (addf wmax (constant S_ .f32 0x358637BD#32))))
      (addf w (broadcastInDim S16x64x64 ![] bcast_S_S16x64x64 (constant S_ .f32 0x358637BD#32)))
  let clipped : (⟨S16x64x64, .f32⟩ : BufTy).Contents (Elt F) :=
    minimumf (broadcastInDim S16x64x64 ![] bcast_S_S16x64x64 (id (constant S_ .f32 0x3F800000#32)))
      (maximumf (broadcastInDim S16x64x64 ![] bcast_S_S16x64x64 (id (constant S_ .f32 0x00000000#32))) normed)
  let weight : (⟨S16x64x64, .f32⟩ : BufTy).Contents (Elt F) :=
    addf (mulf clipped (broadcastInDim S16x64x64 ![] bcast_S_S16x64x64 (constant S_ .f32 0x40000000#32)))
      (broadcastInDim S16x64x64 ![] bcast_S_S16x64x64 (constant S_ .f32 0x3F800000#32))
  Host.divf (Host.reduceAdd (mulf L weight) (constant S_ .f32 0x00000000#32) reducesTo_S16x64x64_S_d0_1_2 h_S_)
    (constant S_ .f32 0x47800000#32)

end Cert.ReferenceIdeal.Tail

end
-- ==== Proof.RefResult.lean ====
/-
  The reference's returned scalar is the shared host operations applied to its per-pixel mean of squared
  differences and to the mask.
-/
import proofs.«144198_j39676907888504_2_alg».proof.Proof.RefTail
import proofs.«144198_j39676907888504_2_alg».proof.Proof.Gen.ReferenceIdeal.Read

noncomputable section

namespace Cert.ReferenceIdeal.Tail

open Cert.ReferenceIdeal Cert.ReferenceIdeal.Gen Idealize.ShloMosaic Idealize.ShloMosaic.TcCoe Idealize.SL.Sem

set_option maxRecDepth 16384 in
set_option maxHeartbeats 1000000 in
theorem reference_result (m : (ℓ : Loc nD τ sig) → Buf (Elt Ideal) ℓ) (c : Dev nD) :
    Cert.ReferenceIdeal.Value.res_main_v46 (F := Ideal) m c
      = hostTail (F := Ideal) (Cert.ReferenceIdeal.Read.val_main_v4 (F := Ideal) (m ((c.tc : Thread nD τ).loc main_arg0)) (m ((c.tc : Thread nD τ).loc main_arg1)))
          (m ((c.tc : Thread nD τ).loc main_arg2)) := by
  unfold Cert.ReferenceIdeal.Value.res_main_v46 hostTail
  rfl

end Cert.ReferenceIdeal.Tail

end
-- ==== Proof.TailsAgree.lean ====
/-
  The shared host operations, printed once in each program, are one function of the per-pixel mean and the mask:
  the two texts differ only in which program's copy of a shape or of a dimension record they name.
-/
import proofs.«144198_j39676907888504_2_alg».proof.Proof.IdealTail
import Idealize.ShloMosaic.PureOps.Ideal
import proofs.«144198_j39676907888504_2_alg».proof.Proof.RefTail

noncomputable section

namespace Cert.KernelIdeal.Tail

open Idealize.ShloMosaic Idealize.SL.Sem

set_option maxHeartbeats 400000 in
theorem tails_agree (L : (⟨Cert.KernelIdeal.S16x64x64, .f32⟩ : BufTy).Contents (Elt Ideal))
    (M : (⟨Cert.KernelIdeal.S16x64x64, .i32⟩ : BufTy).Contents (Elt Ideal)) :
    Cert.ReferenceIdeal.Tail.hostTail (F := Ideal) L M = Cert.KernelIdeal.Tail.hostTail (F := Ideal) L M := rfl

end Cert.KernelIdeal.Tail

end
-- ==== Proof.SameResult.lean ====
/-
  The two programs end with one number.  The kernel's program returns the shared host operations of its result array
  viewed per pixel and of the mask; the reference returns the same operations of its per-pixel mean of squared
  differences and of the mask; the per-pixel view of the kernel's result array IS that mean, and the arguments agree.
-/
import proofs.«144198_j39676907888504_2_alg».proof.Proof.LossMetricBridge
import proofs.«144198_j39676907888504_2_alg».proof.Proof.KernelResult
import proofs.«144198_j39676907888504_2_alg».proof.Proof.RefResult
import proofs.«144198_j39676907888504_2_alg».proof.Proof.TailsAgree

noncomputable section

namespace Cert.KernelIdeal.Frm

open Cert.KernelIdeal Cert.KernelIdeal.Gen Idealize.ShloMosaic Idealize.ShloMosaic.TcCoe Idealize.SL.Sem

variable (m : (ℓ : Loc nD τ sig) → Buf (Elt Ideal) ℓ)

set_option maxHeartbeats 1000000 in
/-- The reference's result, from a memory agreeing on the three arguments, is the kernel program's. -/
theorem reference_result (m' : (ℓ : Loc Cert.ReferenceIdeal.nD Cert.ReferenceIdeal.τ Cert.ReferenceIdeal.sig) → Buf (Elt Ideal) ℓ) (c : Dev nD)
    (h0 : m' ((c.tc : Thread Cert.ReferenceIdeal.nD Cert.ReferenceIdeal.τ).loc Cert.ReferenceIdeal.main_arg0) = m ((c.tc : Thread nD τ).loc main_arg0))
    (h1 : m' ((c.tc : Thread Cert.ReferenceIdeal.nD Cert.ReferenceIdeal.τ).loc Cert.ReferenceIdeal.main_arg1) = m ((c.tc : Thread nD τ).loc main_arg1))
    (h2 : m' ((c.tc : Thread Cert.ReferenceIdeal.nD Cert.ReferenceIdeal.τ).loc Cert.ReferenceIdeal.main_arg2) = m ((c.tc : Thread nD τ).loc main_arg2)) :
    Cert.ReferenceIdeal.Value.res_main_v46 (F := Ideal) m' c = result m c := by
  rw [Cert.ReferenceIdeal.Tail.reference_result m' c, result_eq_tail m c, h0, h1, h2]
  refine (Cert.KernelIdeal.Tail.tails_agree _ _).trans ?_
  exact congrArg (fun L => Cert.KernelIdeal.Tail.hostTail (F := Ideal) L (m ((c.tc : Thread nD τ).loc main_arg2)))
    (lossMetric_eq m c).symm

end Cert.KernelIdeal.Frm

end
-- ==== Proof.lean ====
/-
  The certificate of the region-loss kernel against its reference.

  The kernel computes, in one pipelined region over a 16 × 2 grid, the per-pixel mean over 512 channels of the squared
  difference of two feature arrays — each channel chunk of 256 summed into an accumulator block that is zeroed at the
  first chunk and scaled by 1/512 at the last — and then, on the host, reweights the means by their segment averages and
  returns a weighted mean; the reference computes the per-pixel mean as a sum divided by 512 and applies the same host
  operations.

  frames: the two kernel programs run to the end, fault nowhere and leave their arguments unchanged — the body run once
    per branch (first chunk / last chunk), the accumulator block followed point by point, the sixty-five later host lines
    run from the region's exit; the reference's frame is its run with the result dropped.
  preserves: the idealization rewrote nothing.
  algebraic: over the extended reals the kernel's result array, viewed per pixel, is the reference's mean (two chunk sums
    scaled by 2⁻⁹ are the whole sum divided by 512), and the shared host operations then give one scalar.
-/
import proofs.«144198_j39676907888504_2_alg».proof.Defs
import proofs.«144198_j39676907888504_2_alg».proof.Proof.Gen.Kernel
import proofs.«144198_j39676907888504_2_alg».proof.Proof.Gen.KernelIdeal
import proofs.«144198_j39676907888504_2_alg».proof.Proof.Gen.ReferenceIdeal
import proofs.«144198_j39676907888504_2_alg».proof.Proof.Gen.Pre_finite_inputs
import proofs.«144198_j39676907888504_2_alg».proof.Proof.BitsFrame
import proofs.«144198_j39676907888504_2_alg».proof.Proof.SameResult
import Idealize.ShloMosaic.Adequacy
import Idealize.ShloMosaic.Init

noncomputable section

namespace Cert.Proof

open Idealize.ShloMosaic Idealize.SL.Sem

theorem frame_kernel : Cert.frame_Kernel := fun m ρ _ => Cert.Kernel.Frm.frame m ρ

theorem frame_kernelIdeal : Cert.frame_KernelIdeal := fun m ρ _ => Cert.KernelIdeal.Frm.frame m ρ

theorem frame_referenceIdeal : Cert.frame_ReferenceIdeal := fun m ρ _ =>
  (θ_run Cert.ReferenceIdeal.defs _ _).mono (fun _ h c => (h c).2) (Cert.ReferenceIdeal.Value.run (F := Ideal) m ρ)

theorem preserves : Cert.preserves_Kernel_KernelIdeal := trivial

/-- Both idealized programs run to the end with their arguments unchanged, and the reference's result is the kernel's. -/
theorem algebraic : Cert.algebraic_KernelIdeal_ReferenceIdeal := by
  intro m ρ m' ρ' _ hagree
  refine ⟨fun c => Cert.KernelIdeal.Frm.result m c, Cert.KernelIdeal.Frm.run m ρ, ?_⟩
  refine (θ_run Cert.ReferenceIdeal.defs _ _).mono (fun _ h c => ⟨(h c).1.trans ?_, (h c).2⟩)
    (Cert.ReferenceIdeal.Value.run (F := Ideal) m' ρ')
  exact Cert.KernelIdeal.Frm.reference_result m m' c (hagree c).1 (hagree c).2.1 (hagree c).2.2

theorem claim : Cert.Claim := ⟨Cert.Kernel.Gen.facts, Cert.KernelIdeal.Gen.facts, Cert.ReferenceIdeal.Gen.facts, Cert.Pre_finite_inputs.Gen.facts,
  frame_kernel, frame_kernelIdeal, frame_referenceIdeal, preserves, algebraic⟩

end Cert.Proof

end
